-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x1 : Shape := ⟨2, ![16384, 1]⟩
abbrev S4096x1024 : Shape := ⟨2, ![4096, 1024]⟩
abbrev S4096 : Shape := ⟨1, ![4096]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x1 : Shape := ⟨2, ![2, 1]⟩
abbrev S2 : Shape := ⟨1, ![2]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x1 : S_.BroadcastsInDim S2x1 (![] : Fin 0 → Fin S2x1.rank)
  reducesTo_S2x1_S_d0_1 : S2x1.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S3072 .f32) (main_arg8 : FVec F S1024x1024 .f32) (main_arg9 : FVec F S1024 .f32) (main_arg10 : FVec F S2x1 .f32) (main_arg11 : FVec F S2 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S2x1 .f32 := Host.absf main_arg10
  let main_cst_18 : FVec F S_ .f32 := constant S_ .f32 0x7F800000#32
  let main_v50 : FVec F S2x1 .f32 := broadcastInDim S2x1 ![] bcast_S_S2x1 main_cst_18
  fn_part3 (F := F) main_arg11 main_v48 main_v49 main_v50

def fn_part1 {F : FTy → Type} [FloatOps F] (main_arg4 : FVec F S4096x1024 .f32) (main_arg5 : FVec F S4096 .f32) (main_arg6 : FVec F S3072x1024 .f32) (main_arg7 : FVec F S3072 .f32) (main_arg8 : FVec F S1024x1024 .f32) (main_arg9 : FVec F S1024 .f32) (main_arg10 : FVec F S2x1 .f32) (main_arg11 : FVec F S2 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S3072x1024 .f32 := Host.absf main_arg6
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x1024 .f32) (main_arg1 : FVec F S16384x1024 .f32) (main_arg2 : FVec F S16384x1024 .f32) (main_arg3 : FVec F S16384x1 .f32) (main_arg4 : FVec F S4096x1024 .f32) (main_arg5 : FVec F S4096 .f32) (main_arg6 : FVec F S3072x1024 .f32) (main_arg7 : FVec F S3072 .f32) (main_arg8 : FVec F S1024x1024 .f32) (main_arg9 : FVec F S1024 .f32) (main_arg10 : FVec F S2x1 .f32) (main_arg11 : FVec F S2 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_v13 main_v16
-- ==== Kernel.lean ====
abbrev S16384x1024 : Shape := ⟨2, ![16384, 1024]⟩
abbrev S16384x1 : Shape := ⟨2, ![16384, 1]⟩
abbrev S4096x1024 : Shape := ⟨2, ![4096, 1024]⟩
abbrev S4096 : Shape := ⟨1, ![4096]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x1 : Shape := ⟨2, ![2, 1]⟩
abbrev S2 : Shape := ⟨1, ![2]⟩
abbrev S1024x4096 : Shape := ⟨2, ![1024, 4096]⟩
abbrev S1024x3072 : Shape := ⟨2, ![1024, 3072]⟩
abbrev S1x2 : Shape := ⟨2, ![1, 2]⟩
abbrev S128x1024 : Shape := ⟨2, ![128, 1024]⟩
abbrev S128x1 : Shape := ⟨2, ![128, 1]⟩
abbrev S128x4096 : Shape := ⟨2, ![128, 4096]⟩
abbrev S1x4096 : Shape := ⟨2, ![1, 4096]⟩
abbrev S128x3072 : Shape := ⟨2, ![128, 3072]⟩
abbrev S1x3072 : Shape := ⟨2, ![1, 3072]⟩
abbrev S128x2 : Shape := ⟨2, ![128, 2]⟩
abbrev S1x1024 : Shape := ⟨2, ![1, 1024]⟩

abbrev nBuf : Space → Nat
  | .hbm => 21
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1, .f32⟩
  | .hbm, ⟨4, _⟩ => ⟨S4096x1024, .f32⟩
  | .hbm, ⟨5, _⟩ => ⟨S4096, .f32⟩
  | .hbm, ⟨6, _⟩ => ⟨S3072x1024, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S2x1, .f32⟩
  | .hbm, ⟨11, _⟩ => ⟨S2, .f32⟩
  | .hbm, ⟨12, _⟩ => ⟨S1024x4096, .f32⟩
  | .hbm, ⟨13, _⟩ => ⟨S1024x4096, .bf16⟩
  | .hbm, ⟨14, _⟩ => ⟨S1024x3072, .f32⟩
  | .hbm, ⟨15, _⟩ => ⟨S1024x3072, .bf16⟩
  | .hbm, ⟨16, _⟩ => ⟨S1024x1024, .f32⟩
  | .hbm, ⟨17, _⟩ => ⟨S1024x1024, .bf16⟩
  | .hbm, ⟨18, _⟩ => ⟨S1x2, .f32⟩
  | .hbm, ⟨19, _⟩ => ⟨S16384x1024, .f32⟩
  | .hbm, ⟨20, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1, .f32⟩
  | .local _ .vmem, ⟨7, _⟩ => ⟨S128x1, .f32⟩
  | .local _ .vmem, ⟨8, _⟩ => ⟨S1024x4096, .bf16⟩
  | .local _ .vmem, ⟨9, _⟩ => ⟨S4096, .f32⟩
  | .local _ .vmem, ⟨10, _⟩ => ⟨S1024x3072, .bf16⟩
  | .local _ .vmem, ⟨11, _⟩ => ⟨S3072, .f32⟩
  | .local _ .vmem, ⟨12, _⟩ => ⟨S1024x1024, .bf16⟩
  | .local _ .vmem, ⟨13, _⟩ => ⟨S1024, .f32⟩
  | .local _ .vmem, ⟨14, _⟩ => ⟨S1x2, .f32⟩
  | .local _ .vmem, ⟨15, _⟩ => ⟨S2, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S4096x1024_S1024x4096_1_0 : S4096x1024.Transposes [1, 0] S1024x4096
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  transposes_S2x1_S1x2_1_0 : S2x1.Transposes [1, 0] S1x2
  inb_S128x1024_S128x1024_0_0 : ∀ a, (![0, 0] : Fin 2 → Nat) a + S128x1024.size a ≤ S128x1024.size a
  h_S128x1024 : 0 < S128x1024.numel
  inb_S128x1_S128x1_0_0 : ∀ a, (![0, 0] : Fin 2 → Nat) a + S128x1.size a ≤ S128x1.size a
  h_S128x1 : 0 < S128x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4096_S4096_0 : ∀ a, (![0] : Fin 1 → Nat) a + S4096.size a ≤ S4096.size a
  h_S4096 : 0 < S4096.numel
  inb_S3072_S3072_0 : ∀ a, (![0] : Fin 1 → Nat) a + S3072.size a ≤ S3072.size a
  h_S3072 : 0 < S3072.numel
  inb_S1024_S1024_0 : ∀ a, (![0] : Fin 1 → Nat) a + S1024.size a ≤ S1024.size a
  h_S1024 : 0 < S1024.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S2_S2_0 : ∀ a, (![0] : Fin 1 → Nat) a + S2.size a ≤ S2.size a
  h_S2 : 0 < S2.numel
  shapeCasts_S4096_S1x4096 : S4096.ShapeCasts S1x4096
  broadcasts_S1x4096_S128x4096 : S1x4096.Broadcasts S128x4096
  shapeCasts_S3072_S1x3072 : S3072.ShapeCasts S1x3072
  broadcasts_S1x3072_S128x3072 : S1x3072.Broadcasts S128x3072
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  broadcasts_S128x1_S128x2 : S128x1.Broadcasts S128x2
  broadcasts_S1x2_S128x2 : S1x2.Broadcasts S128x2
  shapeCasts_S2_S1x2 : S2.ShapeCasts S1x2
  slices_S128x2_o0_0_S128x1 : S128x2.Slices ![0, 0] S128x1
  slices_S128x2_o0_1_S128x1 : S128x2.Slices ![0, 1] S128x1
  broadcasts_S128x1_S128x1024 : S128x1.Broadcasts S128x1024
  shapeCasts_S1024_S1x1024 : S1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x1024_S1024x3072_S128x3072_1_0_0_1_n_n_wf : DotDims.WF S128x1024 S1024x3072 S128x3072 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x3072.size a ≤ S1024x3072.size a
  hwx0_6 : ∀ i : grid0.Coords, EltTy.bits .bf16 = 32 ∨ (Rect.block (s := S1024x3072) S1024x3072.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072.size a ≤ S3072.size a
  hwx0_7 : ∀ i : grid0.Coords, EltTy.bits .f32 = 32 ∨ (Rect.block (s := S3072) S3072.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2.size a ≤ S2.size a
  hwx0_11 : ∀ i : grid0.Coords, EltTy.bits .f32 = 32 ∨ (Rect.block (s := S2) S2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S16384x1024.size a
  hwx0_12 : ∀ i : grid0.Coords, EltTy.bits .f32 = 32 ∨ (Rect.block (s := S16384x1024) S128x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S16384x1024.size a
  hwx0_13 : ∀ i : grid0.Coords, EltTy.bits .f32 = 32 ∨ (Rect.block (s := S16384x1024) S128x1024.size (cc0_transform_13 i) (hinb0_13 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7_0) S128x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v7_1) S128x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x1 : Shape := ⟨2, ![16384, 1]⟩
abbrev S4096x1024 : Shape := ⟨2, ![4096, 1024]⟩
abbrev S4096 : Shape := ⟨1, ![4096]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x1 : Shape := ⟨2, ![2, 1]⟩
abbrev S2 : Shape := ⟨1, ![2]⟩
abbrev S1024x4096 : Shape := ⟨2, ![1024, 4096]⟩
abbrev S16384x4096 : Shape := ⟨2, ![16384, 4096]⟩
abbrev S1x4096 : Shape := ⟨2, ![1, 4096]⟩
abbrev S1024x3072 : Shape := ⟨2, ![1024, 3072]⟩
abbrev S16384x3072 : Shape := ⟨2, ![16384, 3072]⟩
abbrev S1x3072 : Shape := ⟨2, ![1, 3072]⟩
abbrev S1x2 : Shape := ⟨2, ![1, 2]⟩
abbrev S16384x2 : Shape := ⟨2, ![16384, 2]⟩
abbrev S_ : Shape := ⟨0, ![]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1, .f32⟩
  | .hbm, ⟨4, _⟩ => ⟨S4096x1024, .f32⟩
  | .hbm, ⟨5, _⟩ => ⟨S4096, .f32⟩
  | .hbm, ⟨6, _⟩ => ⟨S3072x1024, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S2x1, .f32⟩
  | .hbm, ⟨11, _⟩ => ⟨S2, .f32⟩
  | .hbm, ⟨12, _⟩ => ⟨S1024x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S1024x3072, .f32⟩
  | .hbm, ⟨18, _⟩ => ⟨S16384x3072, .f32⟩
  | .hbm, ⟨19, _⟩ => ⟨S1x3072, .f32⟩
  | .hbm, ⟨20, _⟩ => ⟨S16384x3072, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x2, .f32⟩
  | .hbm, ⟨30, _⟩ => ⟨S16384x2, .f32⟩
  | .hbm, ⟨31, _⟩ => ⟨S1x2, .f32⟩
  | .hbm, ⟨32, _⟩ => ⟨S16384x2, .f32⟩
  | .hbm, ⟨33, _⟩ => ⟨S16384x2, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S1024x1024, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  transposes_S2x1_S1x2_1_0 : S2x1.Transposes [1, 0] S1x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  slices_S16384x2_S16384x1_0_0 : S16384x2.Slices ![0, 0] S16384x1
  slices_S16384x2_S16384x1_0_1 : S16384x2.Slices ![0, 1] S16384x1
  bcast_S_S16384x1 : S_.BroadcastsInDim S16384x1 (![] : Fin 0 → Fin S16384x1.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x1024_S1024x3072_S16384x3072_1_0_0_1_n_n_wf : DotDims.WF S16384x1024 S1024x3072 S16384x3072 [1] [0] [0] [1] [] []
  dot_S16384x1_S1x2_S16384x2_1_0_0_1_n_n_wf : DotDims.WF S16384x1 S1x2 S16384x2 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1_S1x2_S16384x2_1_0_0_1_n_n : DotDims S16384x1 S1x2 S16384x2 where
  lhsContracting := [1]
  rhsContracting := [0]
  lhsNonContracting := [0]
  rhsNonContracting := [1]
  lhsBatch := []
  rhsBatch := []
  wf := dot_S16384x1_S1x2_S16384x2_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Cell.lean ====
/-
  One row of the recurrent cell, on the extended reals.

  From a row x of the input, a row y of the hidden state, a row z of the second state and the row's time step d, the cell
  forms two affine images  ti = x·Wihᵀ + bih  (4096 columns, read as four groups of 1024) and  th = y·Whhᵀ + bhh
  (3072 columns, three groups), and the pair  tdt j = d·wdt j + bdt j  (j = 0, 1). With σ the logistic function,

    gateBar q = σ(tdt 0) · σ(ti[q] + th[q])                      (groups 0 and 0)
    gate q    = σ(tdt 1) · σ(ti[1024 + q] + th[1024 + q])        (groups 1 and 1)
    z' q      = (1 − gate q) · z q + gate q · tanh(ti[3072 + q] + th[2048 + q])
    y' q      = (1 − gateBar q) · y q + gateBar q · tanh((Σₖ z' k · Wz q k + bz q) + ti[2048 + q])

  Every sum and product is the extended reals' own; the association of each sum is the one written here. A row of the
  result depends on that row of x, y, z, d only, which is why the cell may be evaluated block of rows by block of rows.
-/
import Idealize.ShloMosaic.PureOps.Ideal
import Idealize.ShloMosaic.Lib.ValueIdx

noncomputable section

namespace Cert.Cell

open Idealize.ShloMosaic Idealize.ShloMosaic.ValueIdx

/-- Column q of the group of 1024 columns that starts at column o, among 4096 columns. -/
def at4 (o : ℕ) (h : o + 1024 ≤ 4096) (q : Fin 1024) : Fin 4096 := ⟨o + q.val, by have := q.isLt; omega⟩

/-- Column q of the group of 1024 columns that starts at column o, among 3072 columns. -/
def at3 (o : ℕ) (h : o + 1024 ≤ 3072) (q : Fin 1024) : Fin 3072 := ⟨o + q.val, by have := q.isLt; omega⟩

/-- The input's affine image: column c of x·Wihᵀ + bih, the weights indexed (output column, input column). -/
def ti (Wih : Fin 4096 → Fin 1024 → EReal) (bih : Fin 4096 → EReal) (xr : Fin 1024 → EReal) (c : Fin 4096) : EReal :=
  (∑ k : Fin 1024, xr k * Wih c k) + bih c

/-- The hidden state's affine image: column c of y·Whhᵀ + bhh. -/
def th (Whh : Fin 3072 → Fin 1024 → EReal) (bhh : Fin 3072 → EReal) (yr : Fin 1024 → EReal) (c : Fin 3072) : EReal :=
  (∑ k : Fin 1024, yr k * Whh c k) + bhh c

/-- The time step's affine image. -/
def tdt (wdt bdt : Fin 2 → EReal) (d : EReal) (j : Fin 2) : EReal := d * wdt j + bdt j

/-- The cell's parameters as tables of extended reals, each weight matrix indexed (output column, input column). -/
@[ext] structure Weights where
  Wih : Fin 4096 → Fin 1024 → EReal
  bih : Fin 4096 → EReal
  Whh : Fin 3072 → Fin 1024 → EReal
  bhh : Fin 3072 → EReal
  Wz : Fin 1024 → Fin 1024 → EReal
  bz : Fin 1024 → EReal
  wdt : Fin 2 → EReal
  bdt : Fin 2 → EReal

variable (W : Weights)

/-- The gate of the hidden state's update. -/
def gateBar (xr yr : Fin 1024 → EReal) (d : EReal) (q : Fin 1024) : EReal :=
  Ideal.logistic (tdt W.wdt W.bdt d 0)
    * Ideal.logistic (ti W.Wih W.bih xr (at4 0 (by omega) q) + th W.Whh W.bhh yr (at3 0 (by omega) q))

/-- The gate of the second state's update. -/
def gate (xr yr : Fin 1024 → EReal) (d : EReal) (q : Fin 1024) : EReal :=
  Ideal.logistic (tdt W.wdt W.bdt d 1)
    * Ideal.logistic (ti W.Wih W.bih xr (at4 1024 (by omega) q) + th W.Whh W.bhh yr (at3 1024 (by omega) q))

/-- The new second state. -/
def zRow (xr yr zr : Fin 1024 → EReal) (d : EReal) (q : Fin 1024) : EReal :=
  (1 - gate W xr yr d q) * zr q
    + gate W xr yr d q * Ideal.tanh (ti W.Wih W.bih xr (at4 3072 (by omega) q) + th W.Whh W.bhh yr (at3 2048 (by omega) q))

/-- The new hidden state: the new second state goes through Wz before the hyperbolic tangent. -/
def yRow (xr yr zr : Fin 1024 → EReal) (d : EReal) (q : Fin 1024) : EReal :=
  (1 - gateBar W xr yr d q) * yr q + gateBar W xr yr d q *
    Ideal.tanh (((∑ k : Fin 1024, zRow W xr yr zr d k * W.Wz q k) + W.bz q) + ti W.Wih W.bih xr (at4 2048 (by omega) q))

/-- The cell's z' is a function of the tables, of the row's entries and of the column, and of nothing else. -/
theorem zRow_congr {W W' : Weights} {xr xr' yr yr' zr zr' : Fin 1024 → EReal} {d d' : EReal} {q q' : Fin 1024}
    (hW : W = W') (hx : ∀ k, xr k = xr' k) (hy : ∀ k, yr k = yr' k) (hz : ∀ k, zr k = zr' k) (hd : d = d') (hq : q = q') :
    zRow W xr yr zr d q = zRow W' xr' yr' zr' d' q' := by
  rw [hW, funext hx, funext hy, funext hz, hd, hq]

/-- The cell's y' likewise. -/
theorem yRow_congr {W W' : Weights} {xr xr' yr yr' zr zr' : Fin 1024 → EReal} {d d' : EReal} {q q' : Fin 1024}
    (hW : W = W') (hx : ∀ k, xr k = xr' k) (hy : ∀ k, yr k = yr' k) (hz : ∀ k, zr k = zr' k) (hd : d = d') (hq : q = q') :
    yRow W xr yr zr d q = yRow W' xr' yr' zr' d' q' := by
  rw [hW, funext hx, funext hy, funext hz, hd, hq]

/-! ## The tables read off arrays, and the cell over whole arrays -/

/-- The tables read off the parameter arrays as given: weight matrices [outputs, inputs], the time step's weights a
    column [2, 1]. -/
def Weights.ofArrays (a4 : (⟨2, ![4096, 1024]⟩ : Shape).Idx → EReal) (a5 : (⟨1, ![4096]⟩ : Shape).Idx → EReal)
    (a6 : (⟨2, ![3072, 1024]⟩ : Shape).Idx → EReal) (a7 : (⟨1, ![3072]⟩ : Shape).Idx → EReal)
    (a8 : (⟨2, ![1024, 1024]⟩ : Shape).Idx → EReal) (a9 : (⟨1, ![1024]⟩ : Shape).Idx → EReal)
    (a10 : (⟨2, ![2, 1]⟩ : Shape).Idx → EReal) (a11 : (⟨1, ![2]⟩ : Shape).Idx → EReal) : Weights where
  Wih c k := a4 (ix2 c k)
  bih c := a5 (ix1 c)
  Whh c k := a6 (ix2 c k)
  bhh c := a7 (ix1 c)
  Wz q k := a8 (ix2 q k)
  bz q := a9 (ix1 q)
  wdt j := a10 (ix2 j (0 : Fin 1))
  bdt j := a11 (ix1 j)

/-- The tables read off TRANSPOSED weight matrices [inputs, outputs], the time step's weights a row [1, 2]. -/
def Weights.ofTransposed (w4 : (⟨2, ![1024, 4096]⟩ : Shape).Idx → EReal) (b5 : (⟨1, ![4096]⟩ : Shape).Idx → EReal)
    (w6 : (⟨2, ![1024, 3072]⟩ : Shape).Idx → EReal) (b7 : (⟨1, ![3072]⟩ : Shape).Idx → EReal)
    (w8 : (⟨2, ![1024, 1024]⟩ : Shape).Idx → EReal) (b9 : (⟨1, ![1024]⟩ : Shape).Idx → EReal)
    (wd : (⟨2, ![1, 2]⟩ : Shape).Idx → EReal) (bd : (⟨1, ![2]⟩ : Shape).Idx → EReal) : Weights where
  Wih c k := w4 (ix2 k c)
  bih c := b5 (ix1 c)
  Whh c k := w6 (ix2 k c)
  bhh c := b7 (ix1 c)
  Wz q k := w8 (ix2 k q)
  bz q := b9 (ix1 q)
  wdt j := wd (ix2 (0 : Fin 1) j)
  bdt j := bd (ix1 j)

/-- The row of an index of an [n, 1024] array, and its column. -/
abbrev rowOf {n : ℕ} (i : (⟨2, ![n, 1024]⟩ : Shape).Idx) : Fin n := ⟨(i 0).val, idx2_lt0 i⟩
abbrev colOf {n : ℕ} (i : (⟨2, ![n, 1024]⟩ : Shape).Idx) : Fin 1024 := ⟨(i 1).val, idx2_lt1 i⟩

/-- The new second state of all 16384 rows: entry (r, q) is the cell's z' of row r of the arrays. -/
def zArr (X Y Z : (⟨2, ![16384, 1024]⟩ : Shape).Idx → EReal) (DT : (⟨2, ![16384, 1]⟩ : Shape).Idx → EReal) :
    (⟨2, ![16384, 1024]⟩ : Shape).Idx → EReal := fun i =>
  zRow W (fun k => X (ix2 (rowOf i) k)) (fun k => Y (ix2 (rowOf i) k)) (fun k => Z (ix2 (rowOf i) k))
    (DT (ix2 (rowOf i) (0 : Fin 1))) (colOf i)

/-- The new hidden state of all 16384 rows. -/
def yArr (X Y Z : (⟨2, ![16384, 1024]⟩ : Shape).Idx → EReal) (DT : (⟨2, ![16384, 1]⟩ : Shape).Idx → EReal) :
    (⟨2, ![16384, 1024]⟩ : Shape).Idx → EReal := fun i =>
  yRow W (fun k => X (ix2 (rowOf i) k)) (fun k => Y (ix2 (rowOf i) k)) (fun k => Z (ix2 (rowOf i) k))
    (DT (ix2 (rowOf i) (0 : Fin 1))) (colOf i)

theorem zArr_ix2 (X Y Z : (⟨2, ![16384, 1024]⟩ : Shape).Idx → EReal) (DT : (⟨2, ![16384, 1]⟩ : Shape).Idx → EReal)
    (r : Fin 16384) (q : Fin 1024) :
    zArr W X Y Z DT (ix2 r q) = zRow W (fun k => X (ix2 r k)) (fun k => Y (ix2 r k)) (fun k => Z (ix2 r k)) (DT (ix2 r (0 : Fin 1))) q := rfl

theorem yArr_ix2 (X Y Z : (⟨2, ![16384, 1024]⟩ : Shape).Idx → EReal) (DT : (⟨2, ![16384, 1]⟩ : Shape).Idx → EReal)
    (r : Fin 16384) (q : Fin 1024) :
    yArr W X Y Z DT (ix2 r q) = yRow W (fun k => X (ix2 r k)) (fun k => Y (ix2 r k)) (fun k => Z (ix2 r k)) (DT (ix2 r (0 : Fin 1))) q := rfl

end Cert.Cell

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelCell.lean ====
/-
  The kernel body's values, entry by entry, are the cell's rows.

  The body works on a block of 128 rows. Its two affine images are a product with the transposed weight matrix plus the
  bias laid along the rows; at entry (p, c) that is the sum over k of x(p, k) · w(k, c), plus b(c). The column groups are
  cuts of those images along the columns; the time step's image is a product of a column with a row; the gates, the new
  second state and the new hidden state are entrywise. So entry (p, q) of each stored block is the cell's row function
  of row p of the loaded blocks — for any weight tables that the loaded (transposed) matrices and vectors spell out.
-/
import proofs.«155798_j73254962200836_1_alg».proof.Proof.Gen.KernelIdeal.Skeleton
import proofs.«155798_j73254962200836_1_alg».proof.Proof.Cell
import proofs.«155798_j73254962200836_1_alg».proof.Proof.LibMatmulIx
import proofs.«155798_j73254962200836_1_alg».proof.Proof.LibLayout
import Idealize.ShloMosaic.Lib.Pipeline.Value
import Idealize.ShloMosaic.Lib.ValueIdx
import Idealize.ShloMosaic.Lib.ValueLayout
import Idealize.ShloMosaic.Lib.IdealHost

noncomputable section

namespace Cert.KernelCell

open Idealize.ShloMosaic Idealize.ShloMosaic.ValueIdx Cert.KernelIdeal Cert.KernelIdeal.Gen Cert.Cell

/-! ## The three products' dimension records: which coordinate of an operand each output or contracted coordinate is -/

theorem ih_l0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem ih_l1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q
theorem ih_r0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q
theorem ih_r1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

theorem hh_l0 (i : S128x3072.Idx) (q : dot_S128x1024_S1024x3072_S128x3072_1_0_0_1_n_n.contr.Idx) : (dot_S128x1024_S1024x3072_S128x3072_1_0_0_1_n_n.lhsIdx i q 0).val = (i 0).val := by
  unfold DotDims.lhsIdx
  rw [dif_neg (show ¬(0 : Fin S128x1024.rank) ∈ dot_S128x1024_S1024x3072_S128x3072_1_0_0_1_n_n.lhsBatch by decide), dif_pos (show (0 : Fin S128x1024.rank) ∈ dot_S128x1024_S1024x3072_S128x3072_1_0_0_1_n_n.lhsNonContracting by decide)]
  rfl
theorem hh_l1 (i : S128x3072.Idx) (q : dot_S128x1024_S1024x3072_S128x3072_1_0_0_1_n_n.contr.Idx) : (dot_S128x1024_S1024x3072_S128x3072_1_0_0_1_n_n.lhsIdx i q 1).val = (q ⟨0, by decide⟩).val :=
  dot_S128x1024_S1024x3072_S128x3072_1_0_0_1_n_n.lhsIdx_val_of_single rfl i q
theorem hh_r0 (i : S128x3072.Idx) (q : dot_S128x1024_S1024x3072_S128x3072_1_0_0_1_n_n.contr.Idx) : (dot_S128x1024_S1024x3072_S128x3072_1_0_0_1_n_n.rhsIdx i q 0).val = (q ⟨0, by decide⟩).val :=
  dot_S128x1024_S1024x3072_S128x3072_1_0_0_1_n_n.rhsIdx_val_of_single rfl i q
theorem hh_r1 (i : S128x3072.Idx) (q : dot_S128x1024_S1024x3072_S128x3072_1_0_0_1_n_n.contr.Idx) : (dot_S128x1024_S1024x3072_S128x3072_1_0_0_1_n_n.rhsIdx i q 1).val = (i 1).val := by
  unfold DotDims.rhsIdx
  rw [dif_neg (show ¬(1 : Fin S1024x3072.rank) ∈ dot_S128x1024_S1024x3072_S128x3072_1_0_0_1_n_n.rhsBatch by decide), dif_pos (show (1 : Fin S1024x3072.rank) ∈ dot_S128x1024_S1024x3072_S128x3072_1_0_0_1_n_n.rhsNonContracting by decide)]
  rfl

theorem z_l0 (i : S128x1024.Idx) (q : dot_S128x1024_S1024x1024_S128x1024_1_0_0_1_n_n.contr.Idx) : (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem z_l1 (i : S128x1024.Idx) (q : dot_S128x1024_S1024x1024_S128x1024_1_0_0_1_n_n.contr.Idx) : (dot_S128x1024_S1024x1024_S128x1024_1_0_0_1_n_n.lhsIdx i q 1).val = (q ⟨0, by decide⟩).val :=
  dot_S128x1024_S1024x1024_S128x1024_1_0_0_1_n_n.lhsIdx_val_of_single rfl i q
theorem z_r0 (i : S128x1024.Idx) (q : dot_S128x1024_S1024x1024_S128x1024_1_0_0_1_n_n.contr.Idx) : (dot_S128x1024_S1024x1024_S128x1024_1_0_0_1_n_n.rhsIdx i q 0).val = (q ⟨0, by decide⟩).val :=
  dot_S128x1024_S1024x1024_S128x1024_1_0_0_1_n_n.rhsIdx_val_of_single rfl i q
theorem z_r1 (i : S128x1024.Idx) (q : dot_S128x1024_S1024x1024_S128x1024_1_0_0_1_n_n.contr.Idx) : (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-! ## The affine images -/

/-- Entry (p, c) of the input's image: row p of x against column c of the transposed weights, plus the bias at c. -/
theorem ti_entry (x : Vec Ideal S128x1024 .f32) (w : Vec Ideal S1024x4096 .bf16) (b : Vec Ideal S4096 .f32) (p : Fin 128) (c : Fin 4096) :
    k0_pay5 x w b (ix2 p c) = (∑ k : Fin 1024, x (ix2 p k) * w (ix2 k c)) + b (ix1 c) := by
  show (matmul dot_S128x1024_S1024x4096_S128x4096_1_0_0_1_n_n none (truncf .bf16 x bitsLt_bf16_f32) (shapeCast S1024x4096 w shapeCasts_S1024x4096_S1024x4096) (constant (F := Ideal) S128x4096 .f32 0x00000000#32)) (ix2 p c)
      + (broadcastTo S128x4096 (shapeCast S1x4096 b shapeCasts_S4096_S1x4096) broadcasts_S1x4096_S128x4096) (ix2 p c) = _
  rw [MatmulIx.matmul_zero_ix2 dot_S128x1024_S1024x4096_S128x4096_1_0_0_1_n_n rfl rfl ih_l0 ih_l1 ih_r0 ih_r1, broadcastTo_1b_ab_apply, shapeCast_a_1a_apply, shapeCast_self]
  rfl

/-- Entry (p, c) of the hidden state's image. -/
theorem th_entry (y : Vec Ideal S128x1024 .f32) (w : Vec Ideal S1024x3072 .bf16) (b : Vec Ideal S3072 .f32) (p : Fin 128) (c : Fin 3072) :
    k0_pay6 y w b (ix2 p c) = (∑ k : Fin 1024, y (ix2 p k) * w (ix2 k c)) + b (ix1 c) := by
  show (matmul dot_S128x1024_S1024x3072_S128x3072_1_0_0_1_n_n none (truncf .bf16 y bitsLt_bf16_f32) (shapeCast S1024x3072 w shapeCasts_S1024x3072_S1024x3072) (constant (F := Ideal) S128x3072 .f32 0x00000000#32)) (ix2 p c)
      + (broadcastTo S128x3072 (shapeCast S1x3072 b shapeCasts_S3072_S1x3072) broadcasts_S1x3072_S128x3072) (ix2 p c) = _
  rw [MatmulIx.matmul_zero_ix2 dot_S128x1024_S1024x3072_S128x3072_1_0_0_1_n_n rfl rfl hh_l0 hh_l1 hh_r0 hh_r1, broadcastTo_1b_ab_apply, shapeCast_a_1a_apply, shapeCast_self]
  rfl

/-- Entry (p, j) of the time step's image: the step of row p times the weight j, plus the bias j. -/
theorem tdt_entry (dt : Vec Ideal S128x1 .f32) (wd : Vec Ideal S1x2 .f32) (bd : Vec Ideal S2 .f32) (p : Fin 128) (j : Fin 2) :
    k0_pay1 (k0_pay14 dt wd) (k0_pay15 bd) (ix2 p j) = dt (ix2 p (0 : Fin 1)) * wd (ix2 (0 : Fin 1) j) + bd (ix1 j) := by
  show (broadcastTo S128x2 dt broadcasts_S128x1_S128x2) (ix2 p j) * (broadcastTo S128x2 (shapeCast S1x2 wd shapeCasts_S1x2_S1x2) broadcasts_S1x2_S128x2) (ix2 p j)
      + (broadcastTo S128x2 (shapeCast S1x2 bd shapeCasts_S2_S1x2) broadcasts_S1x2_S128x2) (ix2 p j) = _
  rw [Cert.Attn.Layout.broadcastTo_a1_ab_apply, broadcastTo_1b_ab_apply, broadcastTo_1b_ab_apply, shapeCast_self, shapeCast_a_1a_apply]

/-! ## The column groups: cuts of the affine images along the columns -/

theorem grp7 (x : Vec Ideal S128x1024 .f32) (w : Vec Ideal S1024x4096 .bf16) (b : Vec Ideal S4096 .f32) (p : Fin 128) (q : Fin 1024) :
    k0_pay7 x w b (ix2 p q) = k0_pay5 x w b (ix2 p (at4 0 (by omega) q)) :=
  slice2_axis1_apply 0 (k0_pay5 x w b) slices_S128x4096_o0_0_S128x1024 p q (at4 0 (by omega) q) rfl
theorem grp8 (x : Vec Ideal S128x1024 .f32) (w : Vec Ideal S1024x4096 .bf16) (b : Vec Ideal S4096 .f32) (p : Fin 128) (q : Fin 1024) :
    k0_pay8 x w b (ix2 p q) = k0_pay5 x w b (ix2 p (at4 1024 (by omega) q)) :=
  slice2_axis1_apply 1024 (k0_pay5 x w b) slices_S128x4096_o0_1024_S128x1024 p q (at4 1024 (by omega) q) rfl
theorem grp9 (x : Vec Ideal S128x1024 .f32) (w : Vec Ideal S1024x4096 .bf16) (b : Vec Ideal S4096 .f32) (p : Fin 128) (q : Fin 1024) :
    k0_pay9 x w b (ix2 p q) = k0_pay5 x w b (ix2 p (at4 2048 (by omega) q)) :=
  slice2_axis1_apply 2048 (k0_pay5 x w b) slices_S128x4096_o0_2048_S128x1024 p q (at4 2048 (by omega) q) rfl
theorem grp10 (x : Vec Ideal S128x1024 .f32) (w : Vec Ideal S1024x4096 .bf16) (b : Vec Ideal S4096 .f32) (p : Fin 128) (q : Fin 1024) :
    k0_pay10 x w b (ix2 p q) = k0_pay5 x w b (ix2 p (at4 3072 (by omega) q)) :=
  slice2_axis1_apply 3072 (k0_pay5 x w b) slices_S128x4096_o0_3072_S128x1024 p q (at4 3072 (by omega) q) rfl
theorem grp11 (y : Vec Ideal S128x1024 .f32) (w : Vec Ideal S1024x3072 .bf16) (b : Vec Ideal S3072 .f32) (p : Fin 128) (q : Fin 1024) :
    k0_pay11 y w b (ix2 p q) = k0_pay6 y w b (ix2 p (at3 0 (by omega) q)) :=
  slice2_axis1_apply 0 (k0_pay6 y w b) slices_S128x3072_o0_0_S128x1024 p q (at3 0 (by omega) q) rfl
theorem grp12 (y : Vec Ideal S128x1024 .f32) (w : Vec Ideal S1024x3072 .bf16) (b : Vec Ideal S3072 .f32) (p : Fin 128) (q : Fin 1024) :
    k0_pay12 y w b (ix2 p q) = k0_pay6 y w b (ix2 p (at3 1024 (by omega) q)) :=
  slice2_axis1_apply 1024 (k0_pay6 y w b) slices_S128x3072_o0_1024_S128x1024 p q (at3 1024 (by omega) q) rfl
theorem grp13 (y : Vec Ideal S128x1024 .f32) (w : Vec Ideal S1024x3072 .bf16) (b : Vec Ideal S3072 .f32) (p : Fin 128) (q : Fin 1024) :
    k0_pay13 y w b (ix2 p q) = k0_pay6 y w b (ix2 p (at3 2048 (by omega) q)) :=
  slice2_axis1_apply 2048 (k0_pay6 y w b) slices_S128x3072_o0_2048_S128x1024 p q (at3 2048 (by omega) q) rfl

/-! ## The gates, the new second state, the new hidden state -/

section
variable (x y z : Vec Ideal S128x1024 .f32) (dt : Vec Ideal S128x1 .f32) (w4 : Vec Ideal S1024x4096 .bf16) (b5 : Vec Ideal S4096 .f32)
  (w6 : Vec Ideal S1024x3072 .bf16) (b7 : Vec Ideal S3072 .f32) (w8 : Vec Ideal S1024x1024 .bf16) (b9 : Vec Ideal S1024 .f32)
  (wd : Vec Ideal S1x2 .f32) (bd : Vec Ideal S2 .f32)

/-- The logistic of column 0 of the time step's image, laid along the row: at (p, q) it is σ(tdt 0) of row p. -/
theorem sigcol0_entry (p : Fin 128) (q : Fin 1024) :
    (broadcastTo S128x1024 (logistic (extractStridedSlice S128x1 ![0, 0] (k0_pay1 (k0_pay14 dt wd) (k0_pay15 bd)) slices_S128x2_o0_0_S128x1)) broadcasts_S128x1_S128x1024) (ix2 p q) = Ideal.logistic (tdt (Weights.ofTransposed w4 b5 w6 b7 w8 b9 wd bd).wdt (Weights.ofTransposed w4 b5 w6 b7 w8 b9 wd bd).bdt (dt (ix2 p (0 : Fin 1))) 0) := by
  rw [Cert.Attn.Layout.broadcastTo_a1_ab_apply]
  show Ideal.logistic ((extractStridedSlice S128x1 ![0, 0] (k0_pay1 (k0_pay14 dt wd) (k0_pay15 bd)) slices_S128x2_o0_0_S128x1) (ix2 p (0 : Fin 1))) = _
  rw [slice2_axis1_apply 0 _ _ p (0 : Fin 1) (0 : Fin 2) rfl, tdt_entry]
  rfl

/-- The logistic of column 1 of the time step's image, laid along the row: at (p, q) it is σ(tdt 1) of row p. -/
theorem sigcol1_entry (p : Fin 128) (q : Fin 1024) :
    (broadcastTo S128x1024 (logistic (extractStridedSlice S128x1 ![0, 1] (k0_pay1 (k0_pay14 dt wd) (k0_pay15 bd)) slices_S128x2_o0_1_S128x1)) broadcasts_S128x1_S128x1024) (ix2 p q) = Ideal.logistic (tdt (Weights.ofTransposed w4 b5 w6 b7 w8 b9 wd bd).wdt (Weights.ofTransposed w4 b5 w6 b7 w8 b9 wd bd).bdt (dt (ix2 p (0 : Fin 1))) 1) := by
  rw [Cert.Attn.Layout.broadcastTo_a1_ab_apply]
  show Ideal.logistic ((extractStridedSlice S128x1 ![0, 1] (k0_pay1 (k0_pay14 dt wd) (k0_pay15 bd)) slices_S128x2_o0_1_S128x1) (ix2 p (0 : Fin 1))) = _
  rw [slice2_axis1_apply 1 _ _ p (0 : Fin 1) (1 : Fin 2) rfl, tdt_entry]
  rfl

/-- The hidden state's gate at (p, q). -/
theorem gbar_entry (p : Fin 128) (q : Fin 1024) :
    (mulf (broadcastTo S128x1024 (logistic (extractStridedSlice S128x1 ![0, 0] (k0_pay1 (k0_pay14 dt wd) (k0_pay15 bd)) slices_S128x2_o0_0_S128x1)) broadcasts_S128x1_S128x1024) (logistic (addf (k0_pay7 x w4 b5) (k0_pay11 y w6 b7)))) (ix2 p q) = gateBar (Weights.ofTransposed w4 b5 w6 b7 w8 b9 wd bd) (fun k => x (ix2 p k)) (fun k => y (ix2 p k)) (dt (ix2 p (0 : Fin 1))) q := by
  show (broadcastTo S128x1024 (logistic (extractStridedSlice S128x1 ![0, 0] (k0_pay1 (k0_pay14 dt wd) (k0_pay15 bd)) slices_S128x2_o0_0_S128x1)) broadcasts_S128x1_S128x1024) (ix2 p q) * Ideal.logistic (k0_pay7 x w4 b5 (ix2 p q) + k0_pay11 y w6 b7 (ix2 p q)) = _
  rw [sigcol0_entry dt w4 b5 w6 b7 w8 b9 wd bd, grp7, grp11, ti_entry, th_entry]
  rfl

/-- The second state's gate at (p, q). -/
theorem g_entry (p : Fin 128) (q : Fin 1024) :
    (mulf (broadcastTo S128x1024 (logistic (extractStridedSlice S128x1 ![0, 1] (k0_pay1 (k0_pay14 dt wd) (k0_pay15 bd)) slices_S128x2_o0_1_S128x1)) broadcasts_S128x1_S128x1024) (logistic (addf (k0_pay8 x w4 b5) (k0_pay12 y w6 b7)))) (ix2 p q) = gate (Weights.ofTransposed w4 b5 w6 b7 w8 b9 wd bd) (fun k => x (ix2 p k)) (fun k => y (ix2 p k)) (dt (ix2 p (0 : Fin 1))) q := by
  show (broadcastTo S128x1024 (logistic (extractStridedSlice S128x1 ![0, 1] (k0_pay1 (k0_pay14 dt wd) (k0_pay15 bd)) slices_S128x2_o0_1_S128x1)) broadcasts_S128x1_S128x1024) (ix2 p q) * Ideal.logistic (k0_pay8 x w4 b5 (ix2 p q) + k0_pay12 y w6 b7 (ix2 p q)) = _
  rw [sigcol1_entry dt w4 b5 w6 b7 w8 b9 wd bd, grp8, grp12, ti_entry, th_entry]
  rfl

/-- The stored second state as a tree of vector operations over the gate. -/
theorem z_tree : (k0_pay2 z (k0_pay8 x w4 b5) (k0_pay10 x w4 b5) (k0_pay12 y w6 b7) (k0_pay13 y w6 b7) (k0_pay14 dt wd) (k0_pay15 bd)) = addf (mulf (subf (broadcast S128x1024 (Scalar.ofBits (F := Ideal) .f32 0x3F800000#32)) (mulf (broadcastTo S128x1024 (logistic (extractStridedSlice S128x1 ![0, 1] (k0_pay1 (k0_pay14 dt wd) (k0_pay15 bd)) slices_S128x2_o0_1_S128x1)) broadcasts_S128x1_S128x1024) (logistic (addf (k0_pay8 x w4 b5) (k0_pay12 y w6 b7))))) z) (mulf (mulf (broadcastTo S128x1024 (logistic (extractStridedSlice S128x1 ![0, 1] (k0_pay1 (k0_pay14 dt wd) (k0_pay15 bd)) slices_S128x2_o0_1_S128x1)) broadcasts_S128x1_S128x1024) (logistic (addf (k0_pay8 x w4 b5) (k0_pay12 y w6 b7)))) (tanh (addf (k0_pay10 x w4 b5) (k0_pay13 y w6 b7)))) := rfl

/-- ENTRY (p, q) OF THE STORED SECOND STATE is the cell's z' of row p of the loaded blocks. -/
theorem z_entry (p : Fin 128) (q : Fin 1024) :
    (k0_pay2 z (k0_pay8 x w4 b5) (k0_pay10 x w4 b5) (k0_pay12 y w6 b7) (k0_pay13 y w6 b7) (k0_pay14 dt wd) (k0_pay15 bd)) (ix2 p q) = zRow (Weights.ofTransposed w4 b5 w6 b7 w8 b9 wd bd) (fun k => x (ix2 p k)) (fun k => y (ix2 p k)) (fun k => z (ix2 p k)) (dt (ix2 p (0 : Fin 1))) q := by
  rw [z_tree]
  show (Ideal.ofBits .f32 0x3F800000#32 - (mulf (broadcastTo S128x1024 (logistic (extractStridedSlice S128x1 ![0, 1] (k0_pay1 (k0_pay14 dt wd) (k0_pay15 bd)) slices_S128x2_o0_1_S128x1)) broadcasts_S128x1_S128x1024) (logistic (addf (k0_pay8 x w4 b5) (k0_pay12 y w6 b7)))) (ix2 p q)) * z (ix2 p q)
      + (mulf (broadcastTo S128x1024 (logistic (extractStridedSlice S128x1 ![0, 1] (k0_pay1 (k0_pay14 dt wd) (k0_pay15 bd)) slices_S128x2_o0_1_S128x1)) broadcasts_S128x1_S128x1024) (logistic (addf (k0_pay8 x w4 b5) (k0_pay12 y w6 b7)))) (ix2 p q) * Ideal.tanh (k0_pay10 x w4 b5 (ix2 p q) + k0_pay13 y w6 b7 (ix2 p q)) = _
  rw [g_entry x y dt w4 b5 w6 b7 w8 b9 wd bd, Ideal.ofBits_one_f32, grp10, grp13, ti_entry, th_entry]
  rfl

/-- The stored hidden state as a tree of vector operations over its gate and the stored second state. -/
theorem y_tree : (k0_pay3 y z (k0_pay4 w8) b9 (k0_pay7 x w4 b5) (k0_pay8 x w4 b5) (k0_pay9 x w4 b5) (k0_pay10 x w4 b5) (k0_pay11 y w6 b7) (k0_pay12 y w6 b7) (k0_pay13 y w6 b7) (k0_pay14 dt wd) (k0_pay15 bd)) = addf (mulf (subf (broadcast S128x1024 (Scalar.ofBits (F := Ideal) .f32 0x3F800000#32)) (mulf (broadcastTo S128x1024 (logistic (extractStridedSlice S128x1 ![0, 0] (k0_pay1 (k0_pay14 dt wd) (k0_pay15 bd)) slices_S128x2_o0_0_S128x1)) broadcasts_S128x1_S128x1024) (logistic (addf (k0_pay7 x w4 b5) (k0_pay11 y w6 b7))))) y) (mulf (mulf (broadcastTo S128x1024 (logistic (extractStridedSlice S128x1 ![0, 0] (k0_pay1 (k0_pay14 dt wd) (k0_pay15 bd)) slices_S128x2_o0_0_S128x1)) broadcasts_S128x1_S128x1024) (logistic (addf (k0_pay7 x w4 b5) (k0_pay11 y w6 b7)))) (tanh (addf (addf (matmul dot_S128x1024_S1024x1024_S128x1024_1_0_0_1_n_n none (truncf .bf16 (k0_pay2 z (k0_pay8 x w4 b5) (k0_pay10 x w4 b5) (k0_pay12 y w6 b7) (k0_pay13 y w6 b7) (k0_pay14 dt wd) (k0_pay15 bd)) bitsLt_bf16_f32) (k0_pay4 w8) (constant (F := Ideal) S128x1024 .f32 0x00000000#32)) (broadcastTo S128x1024 (shapeCast S1x1024 b9 shapeCasts_S1024_S1x1024) broadcasts_S1x1024_S128x1024)) (k0_pay9 x w4 b5)))) := rfl

/-- ENTRY (p, q) OF THE STORED HIDDEN STATE is the cell's y' of row p of the loaded blocks: the product with the
    transposed Wz sums, over k, the stored second state's entry (p, k) — the cell's z' of the same row — times Wz(q, k). -/
theorem y_entry (p : Fin 128) (q : Fin 1024) :
    (k0_pay3 y z (k0_pay4 w8) b9 (k0_pay7 x w4 b5) (k0_pay8 x w4 b5) (k0_pay9 x w4 b5) (k0_pay10 x w4 b5) (k0_pay11 y w6 b7) (k0_pay12 y w6 b7) (k0_pay13 y w6 b7) (k0_pay14 dt wd) (k0_pay15 bd)) (ix2 p q) = yRow (Weights.ofTransposed w4 b5 w6 b7 w8 b9 wd bd) (fun k => x (ix2 p k)) (fun k => y (ix2 p k)) (fun k => z (ix2 p k)) (dt (ix2 p (0 : Fin 1))) q := by
  rw [y_tree]
  show (Ideal.ofBits .f32 0x3F800000#32 - (mulf (broadcastTo S128x1024 (logistic (extractStridedSlice S128x1 ![0, 0] (k0_pay1 (k0_pay14 dt wd) (k0_pay15 bd)) slices_S128x2_o0_0_S128x1)) broadcasts_S128x1_S128x1024) (logistic (addf (k0_pay7 x w4 b5) (k0_pay11 y w6 b7)))) (ix2 p q)) * y (ix2 p q)
      + (mulf (broadcastTo S128x1024 (logistic (extractStridedSlice S128x1 ![0, 0] (k0_pay1 (k0_pay14 dt wd) (k0_pay15 bd)) slices_S128x2_o0_0_S128x1)) broadcasts_S128x1_S128x1024) (logistic (addf (k0_pay7 x w4 b5) (k0_pay11 y w6 b7)))) (ix2 p q) * Ideal.tanh (((matmul dot_S128x1024_S1024x1024_S128x1024_1_0_0_1_n_n none (truncf .bf16 (k0_pay2 z (k0_pay8 x w4 b5) (k0_pay10 x w4 b5) (k0_pay12 y w6 b7) (k0_pay13 y w6 b7) (k0_pay14 dt wd) (k0_pay15 bd)) bitsLt_bf16_f32) (k0_pay4 w8) (constant (F := Ideal) S128x1024 .f32 0x00000000#32)) (ix2 p q) + (broadcastTo S128x1024 (shapeCast S1x1024 b9 shapeCasts_S1024_S1x1024) broadcasts_S1x1024_S128x1024) (ix2 p q)) + k0_pay9 x w4 b5 (ix2 p q)) = _
  rw [gbar_entry x y dt w4 b5 w6 b7 w8 b9 wd bd, Ideal.ofBits_one_f32, MatmulIx.matmul_zero_ix2 dot_S128x1024_S1024x1024_S128x1024_1_0_0_1_n_n rfl rfl z_l0 z_l1 z_r0 z_r1,
    broadcastTo_1b_ab_apply, shapeCast_a_1a_apply, grp9, ti_entry]
  have hs : (∑ k : Fin 1024, (truncf .bf16 (k0_pay2 z (k0_pay8 x w4 b5) (k0_pay10 x w4 b5) (k0_pay12 y w6 b7) (k0_pay13 y w6 b7) (k0_pay14 dt wd) (k0_pay15 bd)) bitsLt_bf16_f32) (ix2 p k) * (k0_pay4 w8) (ix2 k q))
      = ∑ k : Fin 1024, zRow (Weights.ofTransposed w4 b5 w6 b7 w8 b9 wd bd) (fun k => x (ix2 p k)) (fun k => y (ix2 p k)) (fun k => z (ix2 p k)) (dt (ix2 p (0 : Fin 1))) k * (Weights.ofTransposed w4 b5 w6 b7 w8 b9 wd bd).Wz q k :=
    Finset.sum_congr rfl fun k _ => by
      show (k0_pay2 z (k0_pay8 x w4 b5) (k0_pay10 x w4 b5) (k0_pay12 y w6 b7) (k0_pay13 y w6 b7) (k0_pay14 dt wd) (k0_pay15 bd)) (ix2 p k) * (shapeCast S1024x1024 w8 shapeCasts_S1024x1024_S1024x1024) (ix2 k q) = _
      rw [z_entry x y z dt w4 b5 w6 b7 w8 b9 wd bd, shapeCast_self]
      rfl
  rw [hs]
  rfl

/-- The same two readings at an arbitrary index j of the block, by its row and its column. -/
theorem z_entry' (j : S128x1024.Idx) :
    (k0_pay2 z (k0_pay8 x w4 b5) (k0_pay10 x w4 b5) (k0_pay12 y w6 b7) (k0_pay13 y w6 b7) (k0_pay14 dt wd) (k0_pay15 bd)) j = zRow (Weights.ofTransposed w4 b5 w6 b7 w8 b9 wd bd) (fun k => x (ix2 (rowOf j) k)) (fun k => y (ix2 (rowOf j) k)) (fun k => z (ix2 (rowOf j) k)) (dt (ix2 (rowOf j) (0 : Fin 1))) (colOf j) := by
  obtain ⟨p, q, rfl⟩ : ∃ (p : Fin 128) (q : Fin 1024), j = ix2 p q := ⟨j 0, j 1, eq_ix2 j⟩
  exact z_entry x y z dt w4 b5 w6 b7 w8 b9 wd bd p q

theorem y_entry' (j : S128x1024.Idx) :
    (k0_pay3 y z (k0_pay4 w8) b9 (k0_pay7 x w4 b5) (k0_pay8 x w4 b5) (k0_pay9 x w4 b5) (k0_pay10 x w4 b5) (k0_pay11 y w6 b7) (k0_pay12 y w6 b7) (k0_pay13 y w6 b7) (k0_pay14 dt wd) (k0_pay15 bd)) j = yRow (Weights.ofTransposed w4 b5 w6 b7 w8 b9 wd bd) (fun k => x (ix2 (rowOf j) k)) (fun k => y (ix2 (rowOf j) k)) (fun k => z (ix2 (rowOf j) k)) (dt (ix2 (rowOf j) (0 : Fin 1))) (colOf j) := by
  obtain ⟨p, q, rfl⟩ : ∃ (p : Fin 128) (q : Fin 1024), j = ix2 p q := ⟨j 0, j 1, eq_ix2 j⟩
  exact y_entry x y z dt w4 b5 w6 b7 w8 b9 wd bd p q

end

end Cert.KernelCell

end
-- ==== Proof.KernelArrays.lean ====
/-
  The kernel's two result arrays are the cell, row by row, of the argument arrays.

  The launch cuts the 16384 rows into 128 blocks of 128 rows; point t of the grid receives block t of x, y, z and of the
  time steps, and every weight matrix and bias whole. The weight matrices reach the body transposed (the host transposes
  them before the launch; a change of float format is the identity on the extended reals). What point t writes back is the
  cell of those 128 rows, which is block t of the cell of all rows; the blocks cover the arrays, so each array after the
  run is the cell's whole-array function of the arguments.
-/
import proofs.«155798_j73254962200836_1_alg».proof.Proof.KernelIdealValue
import proofs.«155798_j73254962200836_1_alg».proof.Proof.KernelCell
import Idealize.ShloMosaic.Lib.StableHlo.Run
import Idealize.ShloMosaic.Lib.ValueLayout

set_option maxRecDepth 16384

noncomputable section

namespace Cert.KernelArrays

open Cert.KernelIdeal Cert.KernelIdeal.Gen Idealize.ShloMosaic Idealize.ShloMosaic.TcCoe Idealize.SL.Sem Idealize.ShloMosaic.ValueIdx Cert.Cell
open Idealize.ShloMosaic.Pipeline (Dat)

variable (m : (ℓ : Loc nD τ sig) → Buf (Elt Ideal) ℓ) (ρ : Dev nD → PrngReg)

/-! ## The transposed weights as the region finds them -/

/-- Entry (k, o) of the transposed input weights is entry (o, k) of the parameter array. -/
theorem V_v1 (c : Dev nD) (k : Fin 1024) (o : Fin 4096) : V m c main_v1 (ix2 k o) = (m ((c : Thread nD τ).loc main_arg4)) (ix2 o k) := by
  have e : @Eq (S1024x4096.Idx → EReal) (V m c main_v1) (truncf (F := Ideal) .bf16 (transpose S1024x4096 [1, 0] (m ((c : Thread nD τ).loc main_arg4)) transposes_S4096x1024_S1024x4096_1_0) bitsLt_bf16_f32) := by
    dsimp only [Gen.V, Gen.hostOps0]; after_results <;> rfl
  exact (congrFun e (ix2 k o)).trans (transpose_ix2_apply _ _ k o)

theorem V_v3 (c : Dev nD) (k : Fin 1024) (o : Fin 3072) : V m c main_v3 (ix2 k o) = (m ((c : Thread nD τ).loc main_arg6)) (ix2 o k) := by
  have e : @Eq (S1024x3072.Idx → EReal) (V m c main_v3) (truncf (F := Ideal) .bf16 (transpose S1024x3072 [1, 0] (m ((c : Thread nD τ).loc main_arg6)) transposes_S3072x1024_S1024x3072_1_0) bitsLt_bf16_f32) := by
    dsimp only [Gen.V, Gen.hostOps0]; after_results <;> rfl
  exact (congrFun e (ix2 k o)).trans (transpose_ix2_apply _ _ k o)

theorem V_v5 (c : Dev nD) (k : Fin 1024) (o : Fin 1024) : V m c main_v5 (ix2 k o) = (m ((c : Thread nD τ).loc main_arg8)) (ix2 o k) := by
  have e : @Eq (S1024x1024.Idx → EReal) (V m c main_v5) (truncf (F := Ideal) .bf16 (transpose S1024x1024 [1, 0] (m ((c : Thread nD τ).loc main_arg8)) transposes_S1024x1024_S1024x1024_1_0) bitsLt_bf16_f32) := by
    dsimp only [Gen.V, Gen.hostOps0]; after_results <;> rfl
  exact (congrFun e (ix2 k o)).trans (transpose_ix2_apply _ _ k o)

/-- Entry (0, j) of the transposed time-step weights is entry (j, 0) of the parameter array. -/
theorem V_v6 (c : Dev nD) (j : Fin 2) : V m c main_v6 (ix2 (0 : Fin 1) j) = (m ((c : Thread nD τ).loc main_arg10)) (ix2 j (0 : Fin 1)) := by
  have e : @Eq (S1x2.Idx → EReal) (V m c main_v6) (transpose S1x2 [1, 0] (m ((c : Thread nD τ).loc main_arg10)) transposes_S2x1_S1x2_1_0) := by
    dsimp only [Gen.V, Gen.hostOps0]; after_results <;> rfl
  exact (congrFun e (ix2 (0 : Fin 1) j)).trans (transpose_ix2_apply _ _ (0 : Fin 1) j)

/-! ## The printed index maps, decided over the grid -/

/-- The row-blocked windows (x, y, z, the time steps and the two results) take block t at point t, at column block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The weights' and biases' windows stay at block 0 on every axis. -/
theorem idx_resident : ∀ t : Fin cfg0.N, win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

theorem hz2 : (![0, 0] : Fin 2 → Nat) = fun _ => 0 := funext fun a => by fin_cases a <;> rfl
theorem hz1 : (![0] : Fin 1 → Nat) = fun _ => 0 := funext fun a => by fin_cases a <;> rfl

/-! ## Each point's block -/

/-- WHAT POINT t WRITES BACK to the second state's array is block t of the cell's z' of the argument arrays: row p of the block is row
    128·t + p of the arrays, the weight blocks are the whole transposed matrices, and the cell works row by row. -/
theorem flushed13_cell (c : Dev nD) (t : Fin cfg0.N) :
    (dats m 0 c).flushed 13 t = ((cfg0.win 13).blk t).view.read (Elt Ideal)
      (zArr (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) (m ((c : Thread nD τ).loc main_arg1)) (m ((c : Thread nD τ).loc main_arg2)) (m ((c : Thread nD τ).loc main_arg3))) := by
  rw [Value.flushed13]
  unfold out0_13
  rw [View.canon_unit_zero hz2]
  simp only [View.ld_unit_zero (S := S128x1024) hz2, View.ld_unit_zero (S := S128x1) hz2, View.ld_unit_zero (S := S1024x4096) hz2, View.ld_unit_zero (S := S1024x3072) hz2, View.ld_unit_zero (S := S1024x1024) hz2, View.ld_unit_zero (S := S1x2) hz2, View.ld_unit_zero (S := S4096) hz1, View.ld_unit_zero (S := S3072) hz1, View.ld_unit_zero (S := S1024) hz1, View.ld_unit_zero (S := S2) hz1]
  obtain ⟨e0a, e0b, e1a, e1b, e2a, e2b, e3a, e3b, e12a, e12b, e13a, e13b⟩ := idx_rows t
  obtain ⟨e4a, e4b, e5a, e6a, e6b, e7a, e8a, e8b, e9a, e10a, e10b, e11a⟩ := idx_resident t
  funext j
  refine (Cert.KernelCell.z_entry' (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j).trans ?_
  have hW : Weights.ofTransposed (iblk m c 4 t) (iblk m c 5 t) (iblk m c 6 t) (iblk m c 7 t) (iblk m c 8 t) (iblk m c 9 t) (iblk m c 10 t) (iblk m c 11 t) = (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
    apply Weights.ext
    · funext o k
      show V m c main_v1 (((cfg0.win 4).blk t).view.emb (ix2 k o)) = _
      have he : ((cfg0.win 4).blk t).view.emb (ix2 k o) = ix2 k o := by
        funext ax; apply Fin.ext
        match ax with
        | ⟨0, _⟩ => show win0_4.index t (0 : Fin 2) * 1024 + 1 * k.val = k.val; omega
        | ⟨1, _⟩ => show win0_4.index t (1 : Fin 2) * 4096 + 1 * o.val = o.val; omega
      rw [he]; exact V_v1 m c k o
    · funext o
      show V m c main_arg5 (((cfg0.win 5).blk t).view.emb (ix1 o)) = _
      have he : ((cfg0.win 5).blk t).view.emb (ix1 o) = ix1 o := by
        funext ax; apply Fin.ext
        match ax with
        | ⟨0, _⟩ => show win0_5.index t (0 : Fin 1) * 4096 + 1 * o.val = o.val; omega
      rw [he, V_main_arg5]
      rfl
    · funext o k
      show V m c main_v3 (((cfg0.win 6).blk t).view.emb (ix2 k o)) = _
      have he : ((cfg0.win 6).blk t).view.emb (ix2 k o) = ix2 k o := by
        funext ax; apply Fin.ext
        match ax with
        | ⟨0, _⟩ => show win0_6.index t (0 : Fin 2) * 1024 + 1 * k.val = k.val; omega
        | ⟨1, _⟩ => show win0_6.index t (1 : Fin 2) * 3072 + 1 * o.val = o.val; omega
      rw [he]; exact V_v3 m c k o
    · funext o
      show V m c main_arg7 (((cfg0.win 7).blk t).view.emb (ix1 o)) = _
      have he : ((cfg0.win 7).blk t).view.emb (ix1 o) = ix1 o := by
        funext ax; apply Fin.ext
        match ax with
        | ⟨0, _⟩ => show win0_7.index t (0 : Fin 1) * 3072 + 1 * o.val = o.val; omega
      rw [he, V_main_arg7]
      rfl
    · funext o k
      show V m c main_v5 (((cfg0.win 8).blk t).view.emb (ix2 k o)) = _
      have he : ((cfg0.win 8).blk t).view.emb (ix2 k o) = ix2 k o := by
        funext ax; apply Fin.ext
        match ax with
        | ⟨0, _⟩ => show win0_8.index t (0 : Fin 2) * 1024 + 1 * k.val = k.val; omega
        | ⟨1, _⟩ => show win0_8.index t (1 : Fin 2) * 1024 + 1 * o.val = o.val; omega
      rw [he]; exact V_v5 m c k o
    · funext o
      show V m c main_arg9 (((cfg0.win 9).blk t).view.emb (ix1 o)) = _
      have he : ((cfg0.win 9).blk t).view.emb (ix1 o) = ix1 o := by
        funext ax; apply Fin.ext
        match ax with
        | ⟨0, _⟩ => show win0_9.index t (0 : Fin 1) * 1024 + 1 * o.val = o.val; omega
      rw [he, V_main_arg9]
      rfl
    · funext o
      show V m c main_v6 (((cfg0.win 10).blk t).view.emb (ix2 (0 : Fin 1) o)) = _
      have he : ((cfg0.win 10).blk t).view.emb (ix2 (0 : Fin 1) o) = ix2 (0 : Fin 1) o := by
        funext ax; apply Fin.ext
        match ax with
        | ⟨0, _⟩ => show win0_10.index t (0 : Fin 2) * 1 + 1 * (0 : Fin 1).val = (0 : Fin 1).val; omega
        | ⟨1, _⟩ => show win0_10.index t (1 : Fin 2) * 2 + 1 * o.val = o.val; omega
      rw [he]; exact V_v6 m c o
    · funext o
      show V m c main_arg11 (((cfg0.win 11).blk t).view.emb (ix1 o)) = _
      have he : ((cfg0.win 11).blk t).view.emb (ix1 o) = ix1 o := by
        funext ax; apply Fin.ext
        match ax with
        | ⟨0, _⟩ => show win0_11.index t (0 : Fin 1) * 2 + 1 * o.val = o.val; omega
      rw [he, V_main_arg11]
      rfl
  show _ = zRow (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun k => (m ((c : Thread nD τ).loc main_arg0)) (ix2 (rowOf (n := 16384) (((cfg0.win 13).blk t).view.emb j)) k)) (fun k => (m ((c : Thread nD τ).loc main_arg1)) (ix2 (rowOf (n := 16384) (((cfg0.win 13).blk t).view.emb j)) k)) (fun k => (m ((c : Thread nD τ).loc main_arg2)) (ix2 (rowOf (n := 16384) (((cfg0.win 13).blk t).view.emb j)) k))
      ((m ((c : Thread nD τ).loc main_arg3)) (ix2 (rowOf (n := 16384) (((cfg0.win 13).blk t).view.emb j)) (0 : Fin 1))) (colOf (((cfg0.win 13).blk t).view.emb j))
  refine zRow_congr hW ?_ ?_ ?_ ?_ ?_
  · intro k
    show V m c main_arg0 (((cfg0.win 0).blk t).view.emb (ix2 (rowOf j) k)) = (m ((c : Thread nD τ).loc main_arg0)) (ix2 (rowOf (n := 16384) (((cfg0.win 13).blk t).view.emb j)) k)
    have he : ((cfg0.win 0).blk t).view.emb (ix2 (rowOf j) k) = ix2 (rowOf (n := 16384) (((cfg0.win 13).blk t).view.emb j)) k := by
      funext ax; apply Fin.ext
      match ax with
      | ⟨0, _⟩ => show win0_0.index t (0 : Fin 2) * 128 + 1 * (j 0).val = win0_13.index t (0 : Fin 2) * 128 + 1 * (j 0).val; omega
      | ⟨1, _⟩ => show win0_0.index t (1 : Fin 2) * 1024 + 1 * k.val = k.val; omega
    rw [he, V_main_arg0]
  · intro k
    show V m c main_arg1 (((cfg0.win 1).blk t).view.emb (ix2 (rowOf j) k)) = (m ((c : Thread nD τ).loc main_arg1)) (ix2 (rowOf (n := 16384) (((cfg0.win 13).blk t).view.emb j)) k)
    have he : ((cfg0.win 1).blk t).view.emb (ix2 (rowOf j) k) = ix2 (rowOf (n := 16384) (((cfg0.win 13).blk t).view.emb j)) k := by
      funext ax; apply Fin.ext
      match ax with
      | ⟨0, _⟩ => show win0_1.index t (0 : Fin 2) * 128 + 1 * (j 0).val = win0_13.index t (0 : Fin 2) * 128 + 1 * (j 0).val; omega
      | ⟨1, _⟩ => show win0_1.index t (1 : Fin 2) * 1024 + 1 * k.val = k.val; omega
    rw [he, V_main_arg1]
  · intro k
    show V m c main_arg2 (((cfg0.win 2).blk t).view.emb (ix2 (rowOf j) k)) = (m ((c : Thread nD τ).loc main_arg2)) (ix2 (rowOf (n := 16384) (((cfg0.win 13).blk t).view.emb j)) k)
    have he : ((cfg0.win 2).blk t).view.emb (ix2 (rowOf j) k) = ix2 (rowOf (n := 16384) (((cfg0.win 13).blk t).view.emb j)) k := by
      funext ax; apply Fin.ext
      match ax with
      | ⟨0, _⟩ => show win0_2.index t (0 : Fin 2) * 128 + 1 * (j 0).val = win0_13.index t (0 : Fin 2) * 128 + 1 * (j 0).val; omega
      | ⟨1, _⟩ => show win0_2.index t (1 : Fin 2) * 1024 + 1 * k.val = k.val; omega
    rw [he, V_main_arg2]
  · show V m c main_arg3 (((cfg0.win 3).blk t).view.emb (ix2 (rowOf j) (0 : Fin 1))) = (m ((c : Thread nD τ).loc main_arg3)) (ix2 (rowOf (n := 16384) (((cfg0.win 13).blk t).view.emb j)) (0 : Fin 1))
    have he : ((cfg0.win 3).blk t).view.emb (ix2 (rowOf j) (0 : Fin 1)) = ix2 (rowOf (n := 16384) (((cfg0.win 13).blk t).view.emb j)) (0 : Fin 1) := by
      funext ax; apply Fin.ext
      match ax with
      | ⟨0, _⟩ => show win0_3.index t (0 : Fin 2) * 128 + 1 * (j 0).val = win0_13.index t (0 : Fin 2) * 128 + 1 * (j 0).val; omega
      | ⟨1, _⟩ => show win0_3.index t (1 : Fin 2) * 1 + 1 * (0 : Fin 1).val = (0 : Fin 1).val; omega
    rw [he, V_main_arg3]
  · apply Fin.ext
    show (j 1).val = win0_13.index t (1 : Fin 2) * 1024 + 1 * (j 1).val
    omega

/-- WHAT POINT t WRITES BACK to the hidden state's array is block t of the cell's y' of the argument arrays: row p of the block is row
    128·t + p of the arrays, the weight blocks are the whole transposed matrices, and the cell works row by row. -/
theorem flushed12_cell (c : Dev nD) (t : Fin cfg0.N) :
    (dats m 0 c).flushed 12 t = ((cfg0.win 12).blk t).view.read (Elt Ideal)
      (yArr (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) (m ((c : Thread nD τ).loc main_arg1)) (m ((c : Thread nD τ).loc main_arg2)) (m ((c : Thread nD τ).loc main_arg3))) := by
  rw [Value.flushed12]
  unfold out0_12
  rw [View.canon_unit_zero hz2]
  simp only [View.ld_unit_zero (S := S128x1024) hz2, View.ld_unit_zero (S := S128x1) hz2, View.ld_unit_zero (S := S1024x4096) hz2, View.ld_unit_zero (S := S1024x3072) hz2, View.ld_unit_zero (S := S1024x1024) hz2, View.ld_unit_zero (S := S1x2) hz2, View.ld_unit_zero (S := S4096) hz1, View.ld_unit_zero (S := S3072) hz1, View.ld_unit_zero (S := S1024) hz1, View.ld_unit_zero (S := S2) hz1]
  obtain ⟨e0a, e0b, e1a, e1b, e2a, e2b, e3a, e3b, e12a, e12b, e13a, e13b⟩ := idx_rows t
  obtain ⟨e4a, e4b, e5a, e6a, e6b, e7a, e8a, e8b, e9a, e10a, e10b, e11a⟩ := idx_resident t
  funext j
  refine (Cert.KernelCell.y_entry' (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j).trans ?_
  have hW : Weights.ofTransposed (iblk m c 4 t) (iblk m c 5 t) (iblk m c 6 t) (iblk m c 7 t) (iblk m c 8 t) (iblk m c 9 t) (iblk m c 10 t) (iblk m c 11 t) = (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
    apply Weights.ext
    · funext o k
      show V m c main_v1 (((cfg0.win 4).blk t).view.emb (ix2 k o)) = _
      have he : ((cfg0.win 4).blk t).view.emb (ix2 k o) = ix2 k o := by
        funext ax; apply Fin.ext
        match ax with
        | ⟨0, _⟩ => show win0_4.index t (0 : Fin 2) * 1024 + 1 * k.val = k.val; omega
        | ⟨1, _⟩ => show win0_4.index t (1 : Fin 2) * 4096 + 1 * o.val = o.val; omega
      rw [he]; exact V_v1 m c k o
    · funext o
      show V m c main_arg5 (((cfg0.win 5).blk t).view.emb (ix1 o)) = _
      have he : ((cfg0.win 5).blk t).view.emb (ix1 o) = ix1 o := by
        funext ax; apply Fin.ext
        match ax with
        | ⟨0, _⟩ => show win0_5.index t (0 : Fin 1) * 4096 + 1 * o.val = o.val; omega
      rw [he, V_main_arg5]
      rfl
    · funext o k
      show V m c main_v3 (((cfg0.win 6).blk t).view.emb (ix2 k o)) = _
      have he : ((cfg0.win 6).blk t).view.emb (ix2 k o) = ix2 k o := by
        funext ax; apply Fin.ext
        match ax with
        | ⟨0, _⟩ => show win0_6.index t (0 : Fin 2) * 1024 + 1 * k.val = k.val; omega
        | ⟨1, _⟩ => show win0_6.index t (1 : Fin 2) * 3072 + 1 * o.val = o.val; omega
      rw [he]; exact V_v3 m c k o
    · funext o
      show V m c main_arg7 (((cfg0.win 7).blk t).view.emb (ix1 o)) = _
      have he : ((cfg0.win 7).blk t).view.emb (ix1 o) = ix1 o := by
        funext ax; apply Fin.ext
        match ax with
        | ⟨0, _⟩ => show win0_7.index t (0 : Fin 1) * 3072 + 1 * o.val = o.val; omega
      rw [he, V_main_arg7]
      rfl
    · funext o k
      show V m c main_v5 (((cfg0.win 8).blk t).view.emb (ix2 k o)) = _
      have he : ((cfg0.win 8).blk t).view.emb (ix2 k o) = ix2 k o := by
        funext ax; apply Fin.ext
        match ax with
        | ⟨0, _⟩ => show win0_8.index t (0 : Fin 2) * 1024 + 1 * k.val = k.val; omega
        | ⟨1, _⟩ => show win0_8.index t (1 : Fin 2) * 1024 + 1 * o.val = o.val; omega
      rw [he]; exact V_v5 m c k o
    · funext o
      show V m c main_arg9 (((cfg0.win 9).blk t).view.emb (ix1 o)) = _
      have he : ((cfg0.win 9).blk t).view.emb (ix1 o) = ix1 o := by
        funext ax; apply Fin.ext
        match ax with
        | ⟨0, _⟩ => show win0_9.index t (0 : Fin 1) * 1024 + 1 * o.val = o.val; omega
      rw [he, V_main_arg9]
      rfl
    · funext o
      show V m c main_v6 (((cfg0.win 10).blk t).view.emb (ix2 (0 : Fin 1) o)) = _
      have he : ((cfg0.win 10).blk t).view.emb (ix2 (0 : Fin 1) o) = ix2 (0 : Fin 1) o := by
        funext ax; apply Fin.ext
        match ax with
        | ⟨0, _⟩ => show win0_10.index t (0 : Fin 2) * 1 + 1 * (0 : Fin 1).val = (0 : Fin 1).val; omega
        | ⟨1, _⟩ => show win0_10.index t (1 : Fin 2) * 2 + 1 * o.val = o.val; omega
      rw [he]; exact V_v6 m c o
    · funext o
      show V m c main_arg11 (((cfg0.win 11).blk t).view.emb (ix1 o)) = _
      have he : ((cfg0.win 11).blk t).view.emb (ix1 o) = ix1 o := by
        funext ax; apply Fin.ext
        match ax with
        | ⟨0, _⟩ => show win0_11.index t (0 : Fin 1) * 2 + 1 * o.val = o.val; omega
      rw [he, V_main_arg11]
      rfl
  show _ = yRow (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun k => (m ((c : Thread nD τ).loc main_arg0)) (ix2 (rowOf (n := 16384) (((cfg0.win 12).blk t).view.emb j)) k)) (fun k => (m ((c : Thread nD τ).loc main_arg1)) (ix2 (rowOf (n := 16384) (((cfg0.win 12).blk t).view.emb j)) k)) (fun k => (m ((c : Thread nD τ).loc main_arg2)) (ix2 (rowOf (n := 16384) (((cfg0.win 12).blk t).view.emb j)) k))
      ((m ((c : Thread nD τ).loc main_arg3)) (ix2 (rowOf (n := 16384) (((cfg0.win 12).blk t).view.emb j)) (0 : Fin 1))) (colOf (((cfg0.win 12).blk t).view.emb j))
  refine yRow_congr hW ?_ ?_ ?_ ?_ ?_
  · intro k
    show V m c main_arg0 (((cfg0.win 0).blk t).view.emb (ix2 (rowOf j) k)) = (m ((c : Thread nD τ).loc main_arg0)) (ix2 (rowOf (n := 16384) (((cfg0.win 12).blk t).view.emb j)) k)
    have he : ((cfg0.win 0).blk t).view.emb (ix2 (rowOf j) k) = ix2 (rowOf (n := 16384) (((cfg0.win 12).blk t).view.emb j)) k := by
      funext ax; apply Fin.ext
      match ax with
      | ⟨0, _⟩ => show win0_0.index t (0 : Fin 2) * 128 + 1 * (j 0).val = win0_12.index t (0 : Fin 2) * 128 + 1 * (j 0).val; omega
      | ⟨1, _⟩ => show win0_0.index t (1 : Fin 2) * 1024 + 1 * k.val = k.val; omega
    rw [he, V_main_arg0]
  · intro k
    show V m c main_arg1 (((cfg0.win 1).blk t).view.emb (ix2 (rowOf j) k)) = (m ((c : Thread nD τ).loc main_arg1)) (ix2 (rowOf (n := 16384) (((cfg0.win 12).blk t).view.emb j)) k)
    have he : ((cfg0.win 1).blk t).view.emb (ix2 (rowOf j) k) = ix2 (rowOf (n := 16384) (((cfg0.win 12).blk t).view.emb j)) k := by
      funext ax; apply Fin.ext
      match ax with
      | ⟨0, _⟩ => show win0_1.index t (0 : Fin 2) * 128 + 1 * (j 0).val = win0_12.index t (0 : Fin 2) * 128 + 1 * (j 0).val; omega
      | ⟨1, _⟩ => show win0_1.index t (1 : Fin 2) * 1024 + 1 * k.val = k.val; omega
    rw [he, V_main_arg1]
  · intro k
    show V m c main_arg2 (((cfg0.win 2).blk t).view.emb (ix2 (rowOf j) k)) = (m ((c : Thread nD τ).loc main_arg2)) (ix2 (rowOf (n := 16384) (((cfg0.win 12).blk t).view.emb j)) k)
    have he : ((cfg0.win 2).blk t).view.emb (ix2 (rowOf j) k) = ix2 (rowOf (n := 16384) (((cfg0.win 12).blk t).view.emb j)) k := by
      funext ax; apply Fin.ext
      match ax with
      | ⟨0, _⟩ => show win0_2.index t (0 : Fin 2) * 128 + 1 * (j 0).val = win0_12.index t (0 : Fin 2) * 128 + 1 * (j 0).val; omega
      | ⟨1, _⟩ => show win0_2.index t (1 : Fin 2) * 1024 + 1 * k.val = k.val; omega
    rw [he, V_main_arg2]
  · show V m c main_arg3 (((cfg0.win 3).blk t).view.emb (ix2 (rowOf j) (0 : Fin 1))) = (m ((c : Thread nD τ).loc main_arg3)) (ix2 (rowOf (n := 16384) (((cfg0.win 12).blk t).view.emb j)) (0 : Fin 1))
    have he : ((cfg0.win 3).blk t).view.emb (ix2 (rowOf j) (0 : Fin 1)) = ix2 (rowOf (n := 16384) (((cfg0.win 12).blk t).view.emb j)) (0 : Fin 1) := by
      funext ax; apply Fin.ext
      match ax with
      | ⟨0, _⟩ => show win0_3.index t (0 : Fin 2) * 128 + 1 * (j 0).val = win0_12.index t (0 : Fin 2) * 128 + 1 * (j 0).val; omega
      | ⟨1, _⟩ => show win0_3.index t (1 : Fin 2) * 1 + 1 * (0 : Fin 1).val = (0 : Fin 1).val; omega
    rw [he, V_main_arg3]
  · apply Fin.ext
    show (j 1).val = win0_12.index t (1 : Fin 2) * 1024 + 1 * (j 1).val
    omega

/-! ## The blocks cover the arrays -/

/-- An index of the array is in point t's block iff each coordinate is in the block's range on its axis. -/
theorem mem_blk13 (t : Fin cfg0.N) (i : S16384x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v7_1).slice (win0_13.rect t)).set ↔ _
  rw [View.set_slice_whole, Rect.mem_set_unit]
  exact Iff.rfl

/-- Every index of the array lies in the block of the point that holds its row: row r is in block r / 128. -/
theorem cover13 (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  have hN : cfg0.N = 128 := N_0
  have ht : (i 0).val / 128 < cfg0.N := by rw [hN]; omega
  refine ⟨⟨(i 0).val / 128, ht⟩, flush0_13 _, ?_⟩
  rw [mem_blk13]
  obtain ⟨e0a, e0b, e1a, e1b, e2a, e2b, e3a, e3b, e12a, e12b, e13a, e13b⟩ := idx_rows ⟨(i 0).val / 128, ht⟩
  have hv : (⟨(i 0).val / 128, ht⟩ : Fin cfg0.N).val = (i 0).val / 128 := rfl
  intro a
  match a with
  | ⟨0, _⟩ =>
    show win0_13.index ⟨(i 0).val / 128, ht⟩ (0 : Fin 2) * 128 ≤ (i 0).val ∧ (i 0).val < win0_13.index ⟨(i 0).val / 128, ht⟩ (0 : Fin 2) * 128 + 128
    omega
  | ⟨1, _⟩ =>
    show win0_13.index ⟨(i 0).val / 128, ht⟩ (1 : Fin 2) * 1024 ≤ (i 1).val ∧ (i 1).val < win0_13.index ⟨(i 0).val / 128, ht⟩ (1 : Fin 2) * 1024 + 1024
    omega

/-- THE ARRAY after the run is the cell's z' of the argument arrays, whole. -/
theorem final13 (c : Dev nD) :
    (dats m 0 c).arrAt 13 cfg0.N = zArr (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) (m ((c : Thread nD τ).loc main_arg1)) (m ((c : Thread nD τ).loc main_arg2)) (m ((c : Thread nD τ).loc main_arg3)) :=
  (dats m 0 c).arrAt_eq_of_cover 13 _ (fun t _ => flushed13_cell m c t) cover13

/-- An index of the array is in point t's block iff each coordinate is in the block's range on its axis. -/
theorem mem_blk12 (t : Fin cfg0.N) (i : S16384x1024.Idx) :
    i ∈ ((cfg0.win 12).blk t).view.set ↔ ∀ a : Fin 2, win0_12.index t a * S128x1024.size a ≤ (i a).val ∧ (i a).val < win0_12.index t a * S128x1024.size a + S128x1024.size a := by
  show i ∈ ((View.whole main_v7_0).slice (win0_12.rect t)).set ↔ _
  rw [View.set_slice_whole, Rect.mem_set_unit]
  exact Iff.rfl

/-- Every index of the array lies in the block of the point that holds its row: row r is in block r / 128. -/
theorem cover12 (i : S16384x1024.Idx) : ∃ t : Fin cfg0.N, (cfg0.win 12).flush t = true ∧ i ∈ ((cfg0.win 12).blk t).view.set := by
  have hi0 : (i 0).val < 16384 := (i 0).isLt
  have hi1 : (i 1).val < 1024 := (i 1).isLt
  have hN : cfg0.N = 128 := N_0
  have ht : (i 0).val / 128 < cfg0.N := by rw [hN]; omega
  refine ⟨⟨(i 0).val / 128, ht⟩, flush0_12 _, ?_⟩
  rw [mem_blk12]
  obtain ⟨e0a, e0b, e1a, e1b, e2a, e2b, e3a, e3b, e12a, e12b, e13a, e13b⟩ := idx_rows ⟨(i 0).val / 128, ht⟩
  have hv : (⟨(i 0).val / 128, ht⟩ : Fin cfg0.N).val = (i 0).val / 128 := rfl
  intro a
  match a with
  | ⟨0, _⟩ =>
    show win0_12.index ⟨(i 0).val / 128, ht⟩ (0 : Fin 2) * 128 ≤ (i 0).val ∧ (i 0).val < win0_12.index ⟨(i 0).val / 128, ht⟩ (0 : Fin 2) * 128 + 128
    omega
  | ⟨1, _⟩ =>
    show win0_12.index ⟨(i 0).val / 128, ht⟩ (1 : Fin 2) * 1024 ≤ (i 1).val ∧ (i 1).val < win0_12.index ⟨(i 0).val / 128, ht⟩ (1 : Fin 2) * 1024 + 1024
    omega

/-- THE ARRAY after the run is the cell's y' of the argument arrays, whole. -/
theorem final12 (c : Dev nD) :
    (dats m 0 c).arrAt 12 cfg0.N = yArr (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) (m ((c : Thread nD τ).loc main_arg1)) (m ((c : Thread nD τ).loc main_arg2)) (m ((c : Thread nD τ).loc main_arg3)) :=
  (dats m 0 c).arrAt_eq_of_cover 12 _ (fun t _ => flushed12_cell m c t) cover12

/-! ## The run, read -/

/-- The kernel's run re-posted: its two results at the cell's whole-array functions of the arguments, the arguments
    unchanged. -/
theorem run : θ_run defs (onTc (τ := τ) (main (F := Ideal))) ⟨m, fun _ => 0, ρ⟩ fun r => ∀ c : Dev nD,
      r.2.mem ((c : Thread nD τ).loc main_v7_0) = yArr (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) (m ((c : Thread nD τ).loc main_arg1)) (m ((c : Thread nD τ).loc main_arg2)) (m ((c : Thread nD τ).loc main_arg3))
      ∧ r.2.mem ((c : Thread nD τ).loc main_v7_1) = zArr (Weights.ofArrays (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2.1.trans (final13 m c), (h c).2.2⟩)
    (Value.run_blocks m ρ)

end Cert.KernelArrays

end
-- ==== Proof.HostLayout.lean ====
/-
  Two readings of the host's broadcast at an index given by coordinates: a vector of n entries laid out as the one-row
  matrix [1, n], and a column [m, 1] laid along the n columns of an [m, n] matrix.
-/
import Idealize.ShloMosaic.Lib.Pipeline.Value
import Idealize.ShloMosaic.Lib.ValueIdx

namespace Cert.HostLayout

open Idealize.ShloMosaic Idealize.ShloMosaic.ValueIdx

variable {α : Type}

/-- A vector broadcast along axis 1 into the one-row matrix [1, n] reads, at (u, q), the vector's entry q. -/
theorem bcast_vec_row_apply {n : ℕ} (hd : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] hd x (ix2 u q) = x (ix1 q) := by
  refine broadcastInDim_apply ![1] hd x (ix2 u q) (ix1 q) ?_
  intro a
  match a with
  | ⟨0, _⟩ =>
    show q.val = if n = 1 then 0 else q.val
    split
    · have := q.isLt; omega
    · rfl

/-- A column [m, 1] broadcast along both axes into [m, n] reads, at (r, q), the column's entry of row r. -/
theorem bcast_col_apply {m n : ℕ} (hd : (⟨2, ![m, 1]⟩ : Shape).BroadcastsInDim ⟨2, ![m, n]⟩ ![0, 1])
    (x : (⟨2, ![m, 1]⟩ : Shape).Idx → α) (r : Fin m) (q : Fin n) :
    broadcastInDim ⟨2, ![m, n]⟩ ![0, 1] hd x (ix2 r q) = x (ix2 r (0 : Fin 1)) := by
  refine broadcastInDim_apply ![0, 1] hd x (ix2 r q) (ix2 r (0 : Fin 1)) ?_
  intro a
  match a with
  | ⟨0, _⟩ =>
    show r.val = if m = 1 then 0 else r.val
    split
    · have := r.isLt; omega
    · rfl
  | ⟨1, _⟩ => rfl

end Cert.HostLayout
-- ==== Proof.RefCell.lean ====
/-
  The reference program's values, entry by entry, are the cell's rows.

  The reference works on all 16384 rows at once, with the same operations in the host's spelling: each affine image is a
  product with the transposed weights plus the bias laid along the rows (the time step's is a product over one
  contracted entry, a single term); each logistic is written  1 / (1 + exp(−v)),  which is the logistic function by
  definition, with the constant 1 the f32 pattern 0x3F800000. So entry (r, q) of each result is the cell's row function
  of row r of the argument arrays, with the weight tables read off the parameter arrays as given.
-/
import proofs.«155798_j73254962200836_1_alg».proof.Proof.Gen.ReferenceIdeal.Read
import proofs.«155798_j73254962200836_1_alg».proof.Proof.Cell
import proofs.«155798_j73254962200836_1_alg».proof.Proof.LibMatmulIx
import proofs.«155798_j73254962200836_1_alg».proof.Proof.HostLayout
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

noncomputable section

namespace Cert.RefCell

open Idealize.ShloMosaic Idealize.ShloMosaic.ValueIdx Cert.ReferenceIdeal Cert.ReferenceIdeal.Gen Cert.ReferenceIdeal.Read Cert.Cell Cert.HostLayout

section
variable (x0 x1 x2 : (⟨S16384x1024, .f32⟩ : BufTy).Contents (Elt Ideal)) (x3 : (⟨S16384x1, .f32⟩ : BufTy).Contents (Elt Ideal))
  (x4 : (⟨S4096x1024, .f32⟩ : BufTy).Contents (Elt Ideal)) (x5 : (⟨S4096, .f32⟩ : BufTy).Contents (Elt Ideal))
  (x6 : (⟨S3072x1024, .f32⟩ : BufTy).Contents (Elt Ideal)) (x7 : (⟨S3072, .f32⟩ : BufTy).Contents (Elt Ideal))
  (x8 : (⟨S1024x1024, .f32⟩ : BufTy).Contents (Elt Ideal)) (x9 : (⟨S1024, .f32⟩ : BufTy).Contents (Elt Ideal))
  (x10 : (⟨S2x1, .f32⟩ : BufTy).Contents (Elt Ideal)) (x11 : (⟨S2, .f32⟩ : BufTy).Contents (Elt Ideal))

/-! ## The affine images -/

/-- Entry (r, c) of the input's image. -/
theorem ref_ti (r : Fin 16384) (c : Fin 4096) :
    val_main_v4 (F := Ideal) x0 x4 x5 (ix2 r c) = ti (fun c k => x4 (ix2 c k)) (fun c => x5 (ix1 c)) (fun k => x0 (ix2 r k)) c := by
  show (Host.dotGeneral (F := Ideal) dot_S16384x1024_S1024x4096_S16384x4096_1_0_0_1_n_n none x0 (val_main_v0 (F := Ideal) x4) (ix2 r c) : EReal)
      + (broadcastInDim S16384x4096 ![0, 1] bcast_S1x4096_S16384x4096_0_1 (val_main_v2 (F := Ideal) x5) (ix2 r c) : EReal) = _
  rw [MatmulIx.dotGeneral_ix2 _ rfl rfl lhs_main_v1_0 lhs_main_v1_1 rhs_main_v1_0 rhs_main_v1_1, broadcastInDim_oneRow_apply]
  show (∑ k : Fin 1024, x0 (ix2 r k) * transpose S1024x4096 [1, 0] x4 transposes_S4096x1024_S1024x4096_1_0 (ix2 k c))
      + broadcastInDim S1x4096 ![1] bcast_S4096_S1x4096_1 x5 (ix2 (0 : Fin 1) c) = _
  rw [bcast_vec_row_apply]
  have hs : (∑ k : Fin 1024, x0 (ix2 r k) * transpose S1024x4096 [1, 0] x4 transposes_S4096x1024_S1024x4096_1_0 (ix2 k c))
      = ∑ k : Fin 1024, x0 (ix2 r k) * x4 (ix2 c k) :=
    Finset.sum_congr rfl fun k _ => by rw [transpose_ix2_apply]
  rw [hs]
  rfl

/-- Entry (r, c) of the hidden state's image. -/
theorem ref_th (r : Fin 16384) (c : Fin 3072) :
    val_main_v9 (F := Ideal) x1 x6 x7 (ix2 r c) = th (fun c k => x6 (ix2 c k)) (fun c => x7 (ix1 c)) (fun k => x1 (ix2 r k)) c := by
  show (Host.dotGeneral (F := Ideal) dot_S16384x1024_S1024x3072_S16384x3072_1_0_0_1_n_n none x1 (val_main_v5 (F := Ideal) x6) (ix2 r c) : EReal)
      + (broadcastInDim S16384x3072 ![0, 1] bcast_S1x3072_S16384x3072_0_1 (val_main_v7 (F := Ideal) x7) (ix2 r c) : EReal) = _
  rw [MatmulIx.dotGeneral_ix2 _ rfl rfl lhs_main_v6_0 lhs_main_v6_1 rhs_main_v6_0 rhs_main_v6_1, broadcastInDim_oneRow_apply]
  show (∑ k : Fin 1024, x1 (ix2 r k) * transpose S1024x3072 [1, 0] x6 transposes_S3072x1024_S1024x3072_1_0 (ix2 k c))
      + broadcastInDim S1x3072 ![1] bcast_S3072_S1x3072_1 x7 (ix2 (0 : Fin 1) c) = _
  rw [bcast_vec_row_apply]
  have hs : (∑ k : Fin 1024, x1 (ix2 r k) * transpose S1024x3072 [1, 0] x6 transposes_S3072x1024_S1024x3072_1_0 (ix2 k c))
      = ∑ k : Fin 1024, x1 (ix2 r k) * x6 (ix2 c k) :=
    Finset.sum_congr rfl fun k _ => by rw [transpose_ix2_apply]
  rw [hs]
  rfl

/-- Entry (r, j) of the time step's image: the product contracts one entry, so its sum is a single term. -/
theorem ref_tdt (r : Fin 16384) (j : Fin 2) :
    val_main_v21 (F := Ideal) x3 x10 x11 (ix2 r j) = tdt (fun j => x10 (ix2 j (0 : Fin 1))) (fun j => x11 (ix1 j)) (x3 (ix2 r (0 : Fin 1))) j := by
  show (Host.dotGeneral (F := Ideal) dot_S16384x1_S1x2_S16384x2_1_0_0_1_n_n none x3 (val_main_v17 (F := Ideal) x10) (ix2 r j) : EReal)
      + (broadcastInDim S16384x2 ![0, 1] bcast_S1x2_S16384x2_0_1 (val_main_v19 (F := Ideal) x11) (ix2 r j) : EReal) = _
  rw [MatmulIx.dotGeneral_ix2 _ rfl rfl lhs_main_v18_0 lhs_main_v18_1 rhs_main_v18_0 rhs_main_v18_1, broadcastInDim_oneRow_apply,
    Fin.sum_univ_one]
  show x3 (ix2 r (0 : Fin 1)) * transpose S1x2 [1, 0] x10 transposes_S2x1_S1x2_1_0 (ix2 (0 : Fin 1) j)
      + broadcastInDim S1x2 ![1] bcast_S2_S1x2_1 x11 (ix2 (0 : Fin 1) j) = _
  rw [transpose_ix2_apply, bcast_vec_row_apply]
  rfl

/-! ## The constant one, laid over a column or over the whole array -/

theorem one_v26 (i : S16384x1.Idx) : val_main_v26 (F := Ideal) i = 1 := by
  unfold val_main_v26; rw [broadcastInDim_scalar_apply]; exact Ideal.ofBits_one_f32
theorem one_v28 (i : S16384x1.Idx) : val_main_v28 (F := Ideal) i = 1 := by
  unfold val_main_v28; rw [broadcastInDim_scalar_apply]; exact Ideal.ofBits_one_f32
theorem one_v41 (i : S16384x1.Idx) : val_main_v41 (F := Ideal) i = 1 := by
  unfold val_main_v41; rw [broadcastInDim_scalar_apply]; exact Ideal.ofBits_one_f32
theorem one_v43 (i : S16384x1.Idx) : val_main_v43 (F := Ideal) i = 1 := by
  unfold val_main_v43; rw [broadcastInDim_scalar_apply]; exact Ideal.ofBits_one_f32
theorem one_v33 (i : S16384x1024.Idx) : val_main_v33 (F := Ideal) i = 1 := by
  unfold val_main_v33; rw [broadcastInDim_scalar_apply]; exact Ideal.ofBits_one_f32
theorem one_v35 (i : S16384x1024.Idx) : val_main_v35 (F := Ideal) i = 1 := by
  unfold val_main_v35; rw [broadcastInDim_scalar_apply]; exact Ideal.ofBits_one_f32
theorem one_v48 (i : S16384x1024.Idx) : val_main_v48 (F := Ideal) i = 1 := by
  unfold val_main_v48; rw [broadcastInDim_scalar_apply]; exact Ideal.ofBits_one_f32
theorem one_v50 (i : S16384x1024.Idx) : val_main_v50 (F := Ideal) i = 1 := by
  unfold val_main_v50; rw [broadcastInDim_scalar_apply]; exact Ideal.ofBits_one_f32
theorem one_v54 (i : S16384x1024.Idx) : val_main_v54 (F := Ideal) i = 1 := by
  unfold val_main_v54; rw [broadcastInDim_scalar_apply]; exact Ideal.ofBits_one_f32
theorem one_v61 (i : S16384x1024.Idx) : val_main_v61 (F := Ideal) i = 1 := by
  unfold val_main_v61; rw [broadcastInDim_scalar_apply]; exact Ideal.ofBits_one_f32

/-! ## The column groups -/

theorem cut_v10 (r : Fin 16384) (q : Fin 1024) :
    val_main_v10 (F := Ideal) x0 x4 x5 (ix2 r q) = val_main_v4 (F := Ideal) x0 x4 x5 (ix2 r (at4 0 (by omega) q)) :=
  slice2_axis1_apply 0 (val_main_v4 (F := Ideal) x0 x4 x5) slices_S16384x4096_S16384x1024_0_0 r q (at4 0 (by omega) q) rfl
theorem cut_v11 (r : Fin 16384) (q : Fin 1024) :
    val_main_v11 (F := Ideal) x0 x4 x5 (ix2 r q) = val_main_v4 (F := Ideal) x0 x4 x5 (ix2 r (at4 1024 (by omega) q)) :=
  slice2_axis1_apply 1024 (val_main_v4 (F := Ideal) x0 x4 x5) slices_S16384x4096_S16384x1024_0_1024 r q (at4 1024 (by omega) q) rfl
theorem cut_v12 (r : Fin 16384) (q : Fin 1024) :
    val_main_v12 (F := Ideal) x0 x4 x5 (ix2 r q) = val_main_v4 (F := Ideal) x0 x4 x5 (ix2 r (at4 2048 (by omega) q)) :=
  slice2_axis1_apply 2048 (val_main_v4 (F := Ideal) x0 x4 x5) slices_S16384x4096_S16384x1024_0_2048 r q (at4 2048 (by omega) q) rfl
theorem cut_v13 (r : Fin 16384) (q : Fin 1024) :
    val_main_v13 (F := Ideal) x0 x4 x5 (ix2 r q) = val_main_v4 (F := Ideal) x0 x4 x5 (ix2 r (at4 3072 (by omega) q)) :=
  slice2_axis1_apply 3072 (val_main_v4 (F := Ideal) x0 x4 x5) slices_S16384x4096_S16384x1024_0_3072 r q (at4 3072 (by omega) q) rfl
theorem cut_v14 (r : Fin 16384) (q : Fin 1024) :
    val_main_v14 (F := Ideal) x1 x6 x7 (ix2 r q) = val_main_v9 (F := Ideal) x1 x6 x7 (ix2 r (at3 0 (by omega) q)) :=
  slice2_axis1_apply 0 (val_main_v9 (F := Ideal) x1 x6 x7) slices_S16384x3072_S16384x1024_0_0 r q (at3 0 (by omega) q) rfl
theorem cut_v15 (r : Fin 16384) (q : Fin 1024) :
    val_main_v15 (F := Ideal) x1 x6 x7 (ix2 r q) = val_main_v9 (F := Ideal) x1 x6 x7 (ix2 r (at3 1024 (by omega) q)) :=
  slice2_axis1_apply 1024 (val_main_v9 (F := Ideal) x1 x6 x7) slices_S16384x3072_S16384x1024_0_1024 r q (at3 1024 (by omega) q) rfl
theorem cut_v16 (r : Fin 16384) (q : Fin 1024) :
    val_main_v16 (F := Ideal) x1 x6 x7 (ix2 r q) = val_main_v9 (F := Ideal) x1 x6 x7 (ix2 r (at3 2048 (by omega) q)) :=
  slice2_axis1_apply 2048 (val_main_v9 (F := Ideal) x1 x6 x7) slices_S16384x3072_S16384x1024_0_2048 r q (at3 2048 (by omega) q) rfl

/-! ## The logistics of the time step's image -/

/-- The host's  1 / (1 + exp(−v))  of column 0 of the time step's image is the logistic of it. -/
theorem ref_sig0 (r : Fin 16384) :
    val_main_v29 (F := Ideal) x3 x10 x11 (ix2 r (0 : Fin 1)) = Ideal.logistic (tdt (Weights.ofArrays x4 x5 x6 x7 x8 x9 x10 x11).wdt (Weights.ofArrays x4 x5 x6 x7 x8 x9 x10 x11).bdt (x3 (ix2 r (0 : Fin 1))) 0) := by
  have hs : val_main_v22 (F := Ideal) x3 x10 x11 (ix2 r (0 : Fin 1)) = val_main_v21 (F := Ideal) x3 x10 x11 (ix2 r (0 : Fin 2)) :=
    slice2_axis1_apply 0 (val_main_v21 (F := Ideal) x3 x10 x11) slices_S16384x2_S16384x1_0_0 r (0 : Fin 1) (0 : Fin 2) rfl
  show Ideal.div (val_main_v28 (F := Ideal) (ix2 r (0 : Fin 1))) (val_main_v26 (F := Ideal) (ix2 r (0 : Fin 1)) + Ideal.exp (-(val_main_v22 (F := Ideal) x3 x10 x11 (ix2 r (0 : Fin 1))))) = _
  rw [one_v28, one_v26, hs, ref_tdt]
  rfl

/-- The host's  1 / (1 + exp(−v))  of column 1 of the time step's image is the logistic of it. -/
theorem ref_sig1 (r : Fin 16384) :
    val_main_v44 (F := Ideal) x3 x10 x11 (ix2 r (0 : Fin 1)) = Ideal.logistic (tdt (Weights.ofArrays x4 x5 x6 x7 x8 x9 x10 x11).wdt (Weights.ofArrays x4 x5 x6 x7 x8 x9 x10 x11).bdt (x3 (ix2 r (0 : Fin 1))) 1) := by
  have hs : val_main_v23 (F := Ideal) x3 x10 x11 (ix2 r (0 : Fin 1)) = val_main_v21 (F := Ideal) x3 x10 x11 (ix2 r (1 : Fin 2)) :=
    slice2_axis1_apply 1 (val_main_v21 (F := Ideal) x3 x10 x11) slices_S16384x2_S16384x1_0_1 r (0 : Fin 1) (1 : Fin 2) rfl
  show Ideal.div (val_main_v43 (F := Ideal) (ix2 r (0 : Fin 1))) (val_main_v41 (F := Ideal) (ix2 r (0 : Fin 1)) + Ideal.exp (-(val_main_v23 (F := Ideal) x3 x10 x11 (ix2 r (0 : Fin 1))))) = _
  rw [one_v43, one_v41, hs, ref_tdt]
  rfl

/-! ## The gates -/

theorem ref_gateBar (r : Fin 16384) (q : Fin 1024) :
    val_main_v38 (F := Ideal) x0 x1 x3 x4 x5 x6 x7 x10 x11 (ix2 r q) = gateBar (Weights.ofArrays x4 x5 x6 x7 x8 x9 x10 x11) (fun k => x0 (ix2 r k)) (fun k => x1 (ix2 r k)) (x3 (ix2 r (0 : Fin 1))) q := by
  have hb : val_main_v37 (F := Ideal) x3 x10 x11 (ix2 r q) = val_main_v29 (F := Ideal) x3 x10 x11 (ix2 r (0 : Fin 1)) :=
    bcast_col_apply bcast_S16384x1_S16384x1024_0_1 (val_main_v29 (F := Ideal) x3 x10 x11) r q
  show val_main_v37 (F := Ideal) x3 x10 x11 (ix2 r q) * Ideal.div (val_main_v35 (F := Ideal) (ix2 r q)) (val_main_v33 (F := Ideal) (ix2 r q) + Ideal.exp (-(val_main_v10 (F := Ideal) x0 x4 x5 (ix2 r q) + val_main_v14 (F := Ideal) x1 x6 x7 (ix2 r q)))) = _
  rw [hb, ref_sig0 x3 x4 x5 x6 x7 x8 x9 x10 x11, one_v35, one_v33, cut_v10, cut_v14, ref_ti, ref_th]
  rfl

theorem ref_gate (r : Fin 16384) (q : Fin 1024) :
    val_main_v53 (F := Ideal) x0 x1 x3 x4 x5 x6 x7 x10 x11 (ix2 r q) = gate (Weights.ofArrays x4 x5 x6 x7 x8 x9 x10 x11) (fun k => x0 (ix2 r k)) (fun k => x1 (ix2 r k)) (x3 (ix2 r (0 : Fin 1))) q := by
  have hb : val_main_v52 (F := Ideal) x3 x10 x11 (ix2 r q) = val_main_v44 (F := Ideal) x3 x10 x11 (ix2 r (0 : Fin 1)) :=
    bcast_col_apply bcast_S16384x1_S16384x1024_0_1 (val_main_v44 (F := Ideal) x3 x10 x11) r q
  show val_main_v52 (F := Ideal) x3 x10 x11 (ix2 r q) * Ideal.div (val_main_v50 (F := Ideal) (ix2 r q)) (val_main_v48 (F := Ideal) (ix2 r q) + Ideal.exp (-(val_main_v11 (F := Ideal) x0 x4 x5 (ix2 r q) + val_main_v15 (F := Ideal) x1 x6 x7 (ix2 r q)))) = _
  rw [hb, ref_sig1 x3 x4 x5 x6 x7 x8 x9 x10 x11, one_v50, one_v48, cut_v11, cut_v15, ref_ti, ref_th]
  rfl

/-! ## The results -/

/-- ENTRY (r, q) OF THE REFERENCE'S NEW SECOND STATE is the cell's z' of row r of the arrays. -/
theorem ref_z (r : Fin 16384) (q : Fin 1024) :
    val_main_v60 (F := Ideal) x0 x1 x2 x3 x4 x5 x6 x7 x10 x11 (ix2 r q) = zRow (Weights.ofArrays x4 x5 x6 x7 x8 x9 x10 x11) (fun k => x0 (ix2 r k)) (fun k => x1 (ix2 r k)) (fun k => x2 (ix2 r k)) (x3 (ix2 r (0 : Fin 1))) q := by
  show (val_main_v54 (F := Ideal) (ix2 r q) - val_main_v53 (F := Ideal) x0 x1 x3 x4 x5 x6 x7 x10 x11 (ix2 r q)) * x2 (ix2 r q)
      + val_main_v53 (F := Ideal) x0 x1 x3 x4 x5 x6 x7 x10 x11 (ix2 r q) * Ideal.tanh (val_main_v13 (F := Ideal) x0 x4 x5 (ix2 r q) + val_main_v16 (F := Ideal) x1 x6 x7 (ix2 r q)) = _
  rw [one_v54, ref_gate x0 x1 x3 x4 x5 x6 x7 x8 x9 x10 x11, cut_v13, cut_v16, ref_ti, ref_th]
  rfl

/-- ENTRY (r, q) OF THE REFERENCE'S NEW HIDDEN STATE is the cell's y' of row r of the arrays: the product with the
    transposed Wz sums, over k, the new second state's entry (r, k) times Wz(q, k). -/
theorem ref_y (r : Fin 16384) (q : Fin 1024) :
    val_main_v72 (F := Ideal) x0 x1 x2 x3 x4 x5 x6 x7 x8 x9 x10 x11 (ix2 r q) = yRow (Weights.ofArrays x4 x5 x6 x7 x8 x9 x10 x11) (fun k => x0 (ix2 r k)) (fun k => x1 (ix2 r k)) (fun k => x2 (ix2 r k)) (x3 (ix2 r (0 : Fin 1))) q := by
  show (val_main_v61 (F := Ideal) (ix2 r q) - val_main_v38 (F := Ideal) x0 x1 x3 x4 x5 x6 x7 x10 x11 (ix2 r q)) * x1 (ix2 r q)
      + val_main_v38 (F := Ideal) x0 x1 x3 x4 x5 x6 x7 x10 x11 (ix2 r q) * Ideal.tanh (((Host.dotGeneral (F := Ideal) dot_S16384x1024_S1024x1024_S16384x1024_1_0_0_1_n_n none (val_main_v60 (F := Ideal) x0 x1 x2 x3 x4 x5 x6 x7 x10 x11) (val_main_v64 (F := Ideal) x8) (ix2 r q) : EReal)
          + (broadcastInDim S16384x1024 ![0, 1] bcast_S1x1024_S16384x1024_0_1 (val_main_v66 (F := Ideal) x9) (ix2 r q) : EReal)) + val_main_v12 (F := Ideal) x0 x4 x5 (ix2 r q)) = _
  rw [one_v61, ref_gateBar x0 x1 x3 x4 x5 x6 x7 x8 x9 x10 x11,
    MatmulIx.dotGeneral_ix2 _ rfl rfl lhs_main_v65_0 lhs_main_v65_1 rhs_main_v65_0 rhs_main_v65_1, broadcastInDim_oneRow_apply, cut_v12, ref_ti]
  have hs : (∑ k : Fin 1024, val_main_v60 (F := Ideal) x0 x1 x2 x3 x4 x5 x6 x7 x10 x11 (ix2 r k) * val_main_v64 (F := Ideal) x8 (ix2 k q))
      = ∑ k : Fin 1024, zRow (Weights.ofArrays x4 x5 x6 x7 x8 x9 x10 x11) (fun k => x0 (ix2 r k)) (fun k => x1 (ix2 r k)) (fun k => x2 (ix2 r k)) (x3 (ix2 r (0 : Fin 1))) k * (Weights.ofArrays x4 x5 x6 x7 x8 x9 x10 x11).Wz q k :=
    Finset.sum_congr rfl fun k _ => by
      show val_main_v60 (F := Ideal) x0 x1 x2 x3 x4 x5 x6 x7 x10 x11 (ix2 r k) * transpose S1024x1024 [1, 0] x8 transposes_S1024x1024_S1024x1024_1_0 (ix2 k q) = _
      rw [ref_z x0 x1 x2 x3 x4 x5 x6 x7 x8 x9 x10 x11, transpose_ix2_apply]
      rfl
  have hb : val_main_v66 (F := Ideal) x9 (ix2 (0 : Fin 1) q) = x9 (ix1 q) := bcast_vec_row_apply bcast_S1024_S1x1024_1 x9 (0 : Fin 1) q
  rw [hs, hb]
  rfl

/-! ## The results as whole arrays -/

theorem ref_z_arr : val_main_v60 (F := Ideal) x0 x1 x2 x3 x4 x5 x6 x7 x10 x11 = zArr (Weights.ofArrays x4 x5 x6 x7 x8 x9 x10 x11) x0 x1 x2 x3 := by
  funext i
  obtain ⟨r, q, rfl⟩ : ∃ (r : Fin 16384) (q : Fin 1024), i = ix2 r q := ⟨i 0, i 1, eq_ix2 i⟩
  exact ref_z x0 x1 x2 x3 x4 x5 x6 x7 x8 x9 x10 x11 r q

theorem ref_y_arr : val_main_v72 (F := Ideal) x0 x1 x2 x3 x4 x5 x6 x7 x8 x9 x10 x11 = yArr (Weights.ofArrays x4 x5 x6 x7 x8 x9 x10 x11) x0 x1 x2 x3 := by
  funext i
  obtain ⟨r, q, rfl⟩ : ∃ (r : Fin 16384) (q : Fin 1024), i = ix2 r q := ⟨i 0, i 1, eq_ix2 i⟩
  exact ref_y x0 x1 x2 x3 x4 x5 x6 x7 x8 x9 x10 x11 r q

end

end Cert.RefCell

end
-- ==== Proof.lean ====
/-
  A recurrent cell in one gridded kernel, against its plain reference, on the extended reals.

  Both programs compute, for each of 16384 rows, the cell of Proof/Cell.lean: two affine images of the input row and of
  the hidden-state row, an affine image of the row's time step, two gates (products of logistics), the new second state
  z', and the new hidden state y', which sends z' through one more weight matrix. The kernel takes 128 rows per grid
  point with the weight matrices transposed beforehand and held whole; the reference works on all rows at once with the
  logistic written 1 / (1 + exp(−v)). On the extended reals a change of float format is the identity, a product
  accumulated into zero is the plain sum of products, and that quotient is the logistic function by definition; the two
  programs then apply the same operations in the same association, so their results are equal entry by entry with no
  appeal to finiteness of the inputs:

    · Proof/KernelCell.lean   — entry (p, q) of each block the kernel stores is the cell's row function of row p;
    · Proof/KernelArrays.lean — so each result array after the kernel's run is the cell of the argument arrays, whole;
    · Proof/RefCell.lean      — and so is each result of the reference.

  The three frames are the generated frame runs (the reference's is its run with the results dropped); the idealized
  kernel is the kernel's own text read on the extended reals, so nothing is owed for it.
-/
import proofs.«155798_j73254962200836_1_alg».proof.Defs
import proofs.«155798_j73254962200836_1_alg».proof.Proof.Gen.Kernel
import proofs.«155798_j73254962200836_1_alg».proof.Proof.Gen.Kernel.Skeleton
import proofs.«155798_j73254962200836_1_alg».proof.Proof.Gen.Kernel.Launch
import proofs.«155798_j73254962200836_1_alg».proof.Proof.Gen.Kernel.Points
import proofs.«155798_j73254962200836_1_alg».proof.Proof.Gen.Kernel.Frame
import proofs.«155798_j73254962200836_1_alg».proof.Proof.Gen.KernelIdeal
import proofs.«155798_j73254962200836_1_alg».proof.Proof.Gen.KernelIdeal.Skeleton
import proofs.«155798_j73254962200836_1_alg».proof.Proof.Gen.KernelIdeal.Launch
import proofs.«155798_j73254962200836_1_alg».proof.Proof.Gen.KernelIdeal.Points
import proofs.«155798_j73254962200836_1_alg».proof.Proof.Gen.KernelIdeal.Frame
import proofs.«155798_j73254962200836_1_alg».proof.Proof.Gen.ReferenceIdeal
import proofs.«155798_j73254962200836_1_alg».proof.Proof.Gen.Pre_finite_inputs
import proofs.«155798_j73254962200836_1_alg».proof.Proof.KernelIdealValue
import proofs.«155798_j73254962200836_1_alg».proof.Proof.Gen.ReferenceIdeal.Run
import proofs.«155798_j73254962200836_1_alg».proof.Proof.Gen.ReferenceIdeal.Read
import proofs.«155798_j73254962200836_1_alg».proof.Proof.KernelArrays
import proofs.«155798_j73254962200836_1_alg».proof.Proof.RefCell
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals the kernel's two results are the cell's y' and z' of the argument arrays, and so are the
    reference's, of arrays that agree. -/
theorem algebraic : Cert.algebraic_KernelIdeal_ReferenceIdeal := by
  intro m ρ m' ρ' _ hagree
  refine ⟨_, _, Cert.KernelArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v72_eq, Cert.RefCell.ref_y_arr, a0, a1, a2, a3, a4, a5, a6, a7, a8, a9, a10, a11]
  · obtain ⟨a0, a1, a2, a3, a4, a5, a6, a7, a8, a9, a10, a11⟩ := hagree c
    rw [Cert.ReferenceIdeal.Read.val_main_v60_eq, Cert.RefCell.ref_z_arr _ _ _ _ _ _ _ _ (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)),
      a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
